-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x64x128x128 .f32) (main_arg1 : FVec F S16x64 .f32) (main_arg2 : FVec F S16 .f32) (main_arg3 : FVec F S64x16 .f32) (main_arg4 : FVec F S64 .f32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S32x64x128x128 : Shape := ⟨4, ![32, 64, 128, 128]⟩
abbrev S16x64 : Shape := ⟨2, ![16, 64]⟩
abbrev S16 : Shape := ⟨1, ![16]⟩
abbrev S64x16 : Shape := ⟨2, ![64, 16]⟩
abbrev S64 : Shape := ⟨1, ![64]⟩
abbrev S1x16 : Shape := ⟨2, ![1, 16]⟩
abbrev S1x64 : Shape := ⟨2, ![1, 64]⟩
abbrev S32x64 : Shape := ⟨2, ![32, 64]⟩
abbrev S8x64x64x128 : Shape := ⟨4, ![8, 64, 64, 128]⟩
abbrev S8x64 : Shape := ⟨2, ![8, 64]⟩
abbrev S8x64x64 : Shape := ⟨3, ![8, 64, 64]⟩
abbrev S8x16 : Shape := ⟨2, ![8, 16]⟩
abbrev S8x64x16x128 : Shape := ⟨4, ![8, 64, 16, 128]⟩
abbrev S8x64x1x128 : Shape := ⟨4, ![8, 64, 1, 128]⟩
abbrev S8x64x1x1 : Shape := ⟨4, ![8, 64, 1, 1]⟩

abbrev nBuf : Space → Nat
  | .hbm => 9
  | .vmem => 16
  | .smem => 0
  | _ => 0

abbrev bufTy : (tb : Table) → Fin (tcTables nBuf tb) → BufTy
  | .hbm, ⟨0, _⟩ => ⟨S32x64x128x128, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S1x16, .f32⟩
  | .hbm, ⟨6, _⟩ => ⟨S1x64, .f32⟩
  | .hbm, ⟨7, _⟩ => ⟨S32x64, .f32⟩
  | .hbm, ⟨8, _⟩ => ⟨S32x64x128x128, .f32⟩
  | .local _ .vmem, ⟨0, _⟩ => ⟨S8x64x64x128, .f32⟩
  | .local _ .vmem, ⟨1, _⟩ => ⟨S8x64x64x128, .f32⟩
  | .local _ .vmem, ⟨2, _⟩ => ⟨S16x64, .f32⟩
  | .local _ .vmem, ⟨3, _⟩ => ⟨S1x16, .f32⟩
  | .local _ .vmem, ⟨4, _⟩ => ⟨S64x16, .f32⟩
  | .local _ .vmem, ⟨5, _⟩ => ⟨S1x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64x16x128, .f32⟩
  | .local _ .vmem, ⟨10, _⟩ => ⟨S8x64x16x128, .f32⟩
  | .local _ .vmem, ⟨11, _⟩ => ⟨S8x64, .f32⟩
  | .local _ .vmem, ⟨12, _⟩ => ⟨S8x64, .f32⟩
  | .local _ .vmem, ⟨13, _⟩ => ⟨S8x64x16x128, .f32⟩
  | .local _ .vmem, ⟨14, _⟩ => ⟨S8x64x16x128, .f32⟩
  | .local _ .vmem, ⟨15, _⟩ => ⟨S8x64x1x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x64x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x64x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16_S1x16 : S16.ShapeCasts S1x16
  shapeCasts_S64_S1x64 : S64.ShapeCasts S1x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x64x128_S8x64x64x128_0_0_0_0 : ∀ a, (![0, 0, 0, 0] : Fin 4 → Nat) a + S8x64x64x128.size a ≤ S8x64x64x128.size a
  h_S8x64x64x128 : 0 < S8x64x64x128.numel
  reduces_S8x64x64x128_S8x64x64 : S8x64x64x128.Reduces [3] S8x64x64
  reduces_S8x64x64_S8x64 : S8x64x64.Reduces [2] S8x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8x16 : S1x16.Broadcasts S8x16
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  shapeCasts_S8x64_S8x64x1x1 : S8x64.ShapeCasts S8x64x1x1
  shapeCasts_S8x64x1x1_S8x64x1x1 : S8x64x1x1.ShapeCasts S8x64x1x1
  broadcasts_S8x64x1x1_S8x64x1x128 : S8x64x1x1.Broadcasts S8x64x1x128
  inb_S8x64x1x128_S8x64x1x128_0_0_0_0 : ∀ a, (![0, 0, 0, 0] : Fin 4 → Nat) a + S8x64x1x128.size a ≤ S8x64x1x128.size a
  h_S8x64x1x128 : 0 < S8x64x1x128.numel
  shapeCasts_S8x64x1x128_S8x64x1x128 : S8x64x1x128.ShapeCasts S8x64x1x128
  inb_S8x64x16x128_S8x64x16x128_0_0_0_0 : ∀ a, (![0, 0, 0, 0] : Fin 4 → Nat) a + S8x64x16x128.size a ≤ S8x64x16x128.size a
  h_S8x64x16x128 : 0 < S8x64x16x128.numel
  broadcasts_S8x64x1x128_S8x64x16x128 : S8x64x1x128.Broadcasts S8x64x16x128
  dot_S8x64_S64x16_S8x16_1_0_0_1_n_n_wf : DotDims.WF S8x64 S64x16 S8x16 [1] [0] [0] [1] [] []
  dot_S8x16_S16x64_S8x64_1_0_0_1_n_n_wf : DotDims.WF S8x16 S16x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64x128.size a ≤ S32x64x128x128.size a
  hwx0_0 : ∀ i : grid0.Coords, EltTy.bits .f32 = 32 ∨ (Rect.block (s := S32x64x128x128) S8x64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S32x64.size a
  hwx0_5 : ∀ i : grid0.Coords, EltTy.bits .f32 = 32 ∨ (Rect.block (s := S32x64) S8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x16x128.size a ≤ S32x64x128x128.size a
  hwx1_0 : ∀ i : grid1.Coords, EltTy.bits .f32 = 32 ∨ (Rect.block (s := S32x64x128x128) S8x64x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S32x64.size a
  hwx1_1 : ∀ i : grid1.Coords, EltTy.bits .f32 = 32 ∨ (Rect.block (s := S32x64) S8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x16x128.size a ≤ S32x64x128x128.size a
  hwx1_2 : ∀ i : grid1.Coords, EltTy.bits .f32 = 32 ∨ (Rect.block (s := S32x64x128x128) S8x64x16x128.size (cc1_transform_2 i) (hinb1_2 i)).WholeWords (EltTy.packing .f32)

variable [Facts₀]

def dot_S8x64_S64x16_S8x16_1_0_0_1_n_n : DotDims S8x64 S64x16 S8x16 where
  lhsContracting := [1]
  rhsContracting := [0]
  lhsNonContracting := [0]
  rhsNonContracting := [1]
  lhsBatch := []
  rhsBatch := []
  wf := dot_S8x64_S64x16_S8x16_1_0_0_1_n_n_wf
def dot_S8x16_S16x64_S8x64_1_0_0_1_n_n : DotDims S8x16 S16x64 S8x64 where
  lhsContracting := [1]
  rhsContracting := [0]
  lhsNonContracting := [0]
  rhsNonContracting := [1]
  lhsBatch := []
  rhsBatch := []
  wf := dot_S8x16_S16x64_S8x64_1_0_0_1_n_n_wf

abbrev win0_0 : Pipeline.Window sig grid0 :=
  Pipeline.Window.ofSpec (Memref.whole main_arg0) S8x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S8x64x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x64x16x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x64x128x128 : Shape := ⟨4, ![32, 64, 128, 128]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩
abbrev S32x64 : Shape := ⟨2, ![32, 64]⟩
abbrev S32x16 : Shape := ⟨2, ![32, 16]⟩
abbrev S1x16 : Shape := ⟨2, ![1, 16]⟩
abbrev S1x64 : Shape := ⟨2, ![1, 64]⟩
abbrev S32x64x1x1 : Shape := ⟨4, ![32, 64, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S_, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S32x64, .f32⟩
  | .hbm, ⟨10, _⟩ => ⟨S32x16, .f32⟩
  | .hbm, ⟨11, _⟩ => ⟨S1x16, .f32⟩
  | .hbm, ⟨12, _⟩ => ⟨S32x16, .f32⟩
  | .hbm, ⟨13, _⟩ => ⟨S32x16, .f32⟩
  | .hbm, ⟨14, _⟩ => ⟨S32x16, .f32⟩
  | .hbm, ⟨15, _⟩ => ⟨S32x16, .f32⟩
  | .hbm, ⟨16, _⟩ => ⟨S_, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S_, .f32⟩
  | .hbm, ⟨33, _⟩ => ⟨S32x64, .f32⟩
  | .hbm, ⟨34, _⟩ => ⟨S32x64, .f32⟩
  | .hbm, ⟨35, _⟩ => ⟨S32x64x1x1, .f32⟩
  | .hbm, ⟨36, _⟩ => ⟨S32x64x128x128, .f32⟩
  | .hbm, ⟨37, _⟩ => ⟨S32x64x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  reducesTo_S32x64x128x128_S32x64_d2_3 : S32x64x128x128.ReducesTo [2, 3] S32x64
  h_S_ : 0 < S_.numel
  bcast_S_S32x64 : S_.BroadcastsInDim S32x64 (![] : Fin 0 → Fin S32x64.rank)
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S32x64_S32x64x1x1_0_1 : S32x64.BroadcastsInDim S32x64x1x1 (![0, 1] : Fin 2 → Fin S32x64x1x1.rank)
  bcast_S32x64x1x1_S32x64x128x128_0_1_2_3 : S32x64x1x1.BroadcastsInDim S32x64x128x128 (![0, 1, 2, 3] : Fin 4 → Fin S32x64x128x128.rank)
  dot_S32x64_S16x64_S32x16_1_1_0_0_n_n_wf : DotDims.WF S32x64 S16x64 S32x16 [1] [1] [0] [0] [] []
  dot_S32x16_S64x16_S32x64_1_1_0_0_n_n_wf : DotDims.WF S32x16 S64x16 S32x64 [1] [1] [0] [0] [] []

variable [Facts₀]

def dot_S32x64_S16x64_S32x16_1_1_0_0_n_n : DotDims S32x64 S16x64 S32x16 where
  lhsContracting := [1]
  rhsContracting := [1]
  lhsNonContracting := [0]
  rhsNonContracting := [0]
  lhsBatch := []
  rhsBatch := []
  wf := dot_S32x64_S16x64_S32x16_1_1_0_0_n_n_wf
def dot_S32x16_S64x16_S32x64_1_1_0_0_n_n : DotDims S32x16 S64x16 S32x64 where
  lhsContracting := [1]
  rhsContracting := [1]
  lhsNonContracting := [0]
  rhsNonContracting := [0]
  lhsBatch := []
  rhsBatch := []
  wf := dot_S32x16_S64x16_S32x64_1_1_0_0_n_n_wf

class Facts : Prop extends Facts₀ where

variable [Facts]
-- ==== Proof.K.Region0Base.lean ====
/-
  Region 0 (the pooling call with the gate in its last step), the part every case shares: the two branch
  conditions decided over the 4 × 2 grid, where the output window is idle, the staging memrefs at a point, and the
  region's invariant spelt with the carried accumulator apart from the other scoped buffers.
-/
import proofs.«104051_j49684181680676_2_alg».proof.Proof.Gen.Kernel.Launch
import proofs.«104051_j49684181680676_2_alg».proof.Proof.Gen.Kernel.Skeleton
import proofs.«104051_j49684181680676_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The first branch is taken where the second grid coordinate is 0: the accumulator is zeroed there. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch is taken where the second grid coordinate is 1: the gate is computed and stored there. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points nothing is stored into the output window and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points the output window is stored whole. -/
theorem liveAt0_5_B : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S8x64x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S8x64 .f32 := Memref.whole cc0_scratch0

/-! ## The region's invariant, the accumulator apart -/

/-- The scoped buffers that are neither a staging buffer of this call nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant: the accumulator at some contents, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

/-! ## The windows' blocks, at the contents the region is entered from -/

section Blocks

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.R0

end
-- ==== Proof.K.Region0RunA.lean ====
/-
  Region 0 at a point whose second grid coordinate is 0: the accumulator is zeroed, the block's sums over its two
  spatial axes are added to it, and nothing is stored into the output window.
-/
import proofs.«104051_j49684181680676_2_alg».proof.Proof.Gen.Kernel.Launch
import proofs.«104051_j49684181680676_2_alg».proof.Proof.Gen.Kernel.Skeleton
import proofs.«104051_j49684181680676_2_alg».proof.Proof.Gen.Kernel.Points
import proofs.«104051_j49684181680676_2_alg».proof.Proof.K.Region0Base
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The accumulator as a view: what it holds is stated through it. -/
abbrev VS0 : View sig .tc .vmem S8x64 .f32 := (scM0 : Memref sig .tc .vmem S8x64 .f32).view

set_option maxHeartbeats 1000000 in
/-- The body's run at such a point, on whole memrefs: the inputs and the untouched output buffer are handed back as
    they were, the accumulator (found at anything) with the pieces its two stores write. -/
noncomputable def kernelRun0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) :
    { LS0 : List (View.Piece (Elt F) S8x64 .f32) //
      ∀ (x1 : Vec F S16x64 .f32) (x2 : Vec F S1x16 .f32) (x3 : Vec F S64x16 .f32) (x4 : Vec F S1x64 .f32) (xi5 : Vec F S8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, fun x1 x2 x3 x4 xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

/-- The accumulator's pieces cover it. -/
theorem scover0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) (y : S8x64.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S8x64.size (by sl_kernel_rfl) y

/-- What the accumulator holds after such a point: its pieces read back. -/
def sout0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) : Vec F S8x64 .f32 :=
  VS0.read (Elt F) (VS0.writes (Elt F) VS0.junk (kernelRun0_A c i arg2 harg2 arg3 harg3 arg4 harg4 arg5 harg5 arg6 harg6 arg7 harg7 arg8 harg8 hc0 hc1 x0).1)

/-- It is the block's sums added to the zero splat. -/
theorem sout0_A_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) :
    sout0_A c i arg2 harg2 arg3 harg3 arg4 harg4 arg5 harg5 arg6 harg6 arg7 harg7 arg8 harg8 hc0 hc1 x0 = k0_pay2 x0 (k0_pay1 (F := F)) := by
  unfold sout0_A
  rw [View.read_writes_eq_canon _ _ _ (scover0_A c i arg2 harg2 arg3 harg3 arg4 harg4 arg5 harg5 arg6 harg6 arg7 harg7 arg8 harg8 hc0 hc1 x0)]
  unfold kernelRun0_A
  dsimp only
  sl_unfold_words
  rw [View.canon_cons_unit_zero (S := S8x64) hz2, View.readCov_unit_zero (S := S8x64) _ hz2]
  simp only [View.readAt_eq_ld, harg2.read_unread, View.ld_unit_zero (S := S8x64x64x128) hz4]

end Cert.Kernel.R0

end
-- ==== Proof.K.Region0RunB.lean ====
/-
  Region 0 at a point whose second grid coordinate is 1: the block's sums are added to the accumulator the point
  before left, and the gate of the accumulated row sums is stored into the output window.
-/
import proofs.«104051_j49684181680676_2_alg».proof.Proof.Gen.Kernel.Launch
import proofs.«104051_j49684181680676_2_alg».proof.Proof.Gen.Kernel.Skeleton
import proofs.«104051_j49684181680676_2_alg».proof.Proof.Gen.Kernel.Points
import proofs.«104051_j49684181680676_2_alg».proof.Proof.K.Region0RunA
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One staging buffer of the output window, through which its contents are stated. -/
abbrev VO5 : View sig .tc .vmem S8x64 .f32 := (Memref.whole cc0_stg5_0 : Memref sig .tc .vmem S8x64 .f32).view

set_option maxHeartbeats 2000000 in
/-- The body's run at such a point, on whole memrefs: the inputs handed back as they were, the accumulator (found at
    `xs0`) and the output buffer (found at anything) with the pieces the stores write. -/
noncomputable def kernelRun0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    Σ' (L5 : List (View.Piece (Elt F) S8x64 .f32)), { LS0 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, ?_, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

theorem cover0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) (y : S8x64.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S8x64.size (by sl_kernel_rfl) y

theorem scover0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) (y : S8x64.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S8x64.size (by sl_kernel_rfl) y

/-- What the output window's buffer holds after such a point. -/
def out0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) : Vec F S8x64 .f32 :=
  VO5.read (Elt F) (VO5.writes (Elt F) VO5.junk (kernelRun0_B c i arg2 harg2 arg3 harg3 arg4 harg4 arg5 harg5 arg6 harg6 arg7 harg7 arg8 harg8 hc0 hc1 x0 x1 x2 x3 x4 xs0).1)

/-- What the accumulator holds after such a point. -/
def sout0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) : Vec F S8x64 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).2.1)

/-- The accumulator: the block's sums added to what it held. -/
theorem sout0_B_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    sout0_B c i arg2 harg2 arg3 harg3 arg4 harg4 arg5 harg5 arg6 harg6 arg7 harg7 arg8 harg8 hc0 hc1 x0 x1 x2 x3 x4 xs0 = k0_pay2 x0 xs0 := by
  unfold sout0_B
  rw [View.read_writes_eq_canon _ _ _ (scover0_B c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg8.read_unread, View.ld_unit_zero (S := S8x64x64x128) hz4, View.ld_unit_zero (S := S8x64) hz2]

/-- The output: the gate of the new accumulator. -/
theorem out0_B_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    out0_B c i arg2 harg2 arg3 harg3 arg4 harg4 arg5 harg5 arg6 harg6 arg7 harg7 arg8 harg8 hc0 hc1 x0 x1 x2 x3 x4 xs0 = k0_pay3 (k0_pay2 x0 xs0) x1 x2 x3 x4 := by
  unfold out0_B
  rw [View.read_writes_eq_canon _ _ _ (cover0_B c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S8x64x64x128) hz4, View.ld_unit_zero (S := S8x64) hz2, View.ld_unit_zero (S := S16x64) hz2, View.ld_unit_zero (S := S1x16) hz2, View.ld_unit_zero (S := S64x16) hz2, View.ld_unit_zero (S := S1x64) hz2, View.readCov_unit_zero (S := S8x64) _ hz2]

end Cert.Kernel.R0

end
-- ==== Proof.K.Region0.lean ====
/-
  Region 0: the proof data and the body obligation.

  The grid is 4 × 2, the second coordinate `h` running fastest. At `h = 0` the accumulator is zeroed and the first
  half of the spatial sums is added; at `h = 1` the second half is added and the gate of the accumulated sums is
  stored into the output window, which is written back there. So after point `t` the accumulator holds the sums of
  block `t` over the zero splat (`h = 0`), or of block `t` over those of block `t - 1` over the zero splat (`h = 1`).
-/
import proofs.«104051_j49684181680676_2_alg».proof.Proof.Gen.Kernel.Launch
import proofs.«104051_j49684181680676_2_alg».proof.Proof.Gen.Kernel.Skeleton
import proofs.«104051_j49684181680676_2_alg».proof.Proof.Gen.Kernel.Points
import proofs.«104051_j49684181680676_2_alg».proof.Proof.K.Region0RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point before. -/
def prev (t : Fin cfg0.N) : Fin cfg0.N := ⟨t.val - 1, by have := t.isLt; omega⟩

/-- What the accumulator holds after point `t`. -/
def acc (c : Dev nD) (t : Fin cfg0.N) : Vec F S8x64 .f32 :=
  if t.val % 2 = 0 then k0_pay2 (iblk0 V c 0 t) (k0_pay1 (F := F))
  else k0_pay2 (iblk0 V c 0 t) (k0_pay2 (iblk0 V c 0 (prev t)) (k0_pay1 (F := F)))

/-- The gate block stored at an odd point: of the accumulator there and the weight and bias blocks. -/
def gateBlk (c : Dev nD) (t : Fin cfg0.N) : Vec F S8x64 .f32 :=
  k0_pay3 (acc V c t) (iblk0 V c 1 t) (iblk0 V c 2 t) (iblk0 V c 3 t) (iblk0 V c 4 t)

theorem acc_even (c : Dev nD) (t : Fin cfg0.N) (h0 : t.val % 2 = 0) :
    acc V c t = k0_pay2 (iblk0 V c 0 t) (k0_pay1 (F := F)) := by unfold acc; rw [if_pos h0]

theorem acc_odd (c : Dev nD) (t : Fin cfg0.N) (h0 : ¬t.val % 2 = 0) :
    acc V c t = k0_pay2 (iblk0 V c 0 t) (acc V c (prev t)) := by
  have hp : (prev t).val % 2 = 0 := by unfold prev; dsimp only; omega
  rw [acc_even V c (prev t) hp]; unfold acc; rw [if_neg h0]

/-- The invariant before position `n`: the class's before the first point; afterwards the accumulator at what the
    point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc V c ⟨n, hn⟩) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc V c ⟨n, hn⟩) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc V c ⟨n - 1, by omega⟩) ∗ rest0 c) ∗ (∃ r, prngReg c r)) := by
  cases n with
  | zero => exact absurd rfl hz
  | succ n => rfl

/-- The proof data: the arrays as the region finds them; after the body each input's buffer at its block and the
    output's at the gate block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateBlk V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateBlk V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The two cases' contents are the runs' found pieces -/

theorem condA0 (t : Fin cfg0.N) (h0 : t.val % 2 = 0) : cond0_0 (grid0.coords t) := (hcond0_0 t).mpr h0
theorem condA1 (t : Fin cfg0.N) (h0 : t.val % 2 = 0) : ¬cond0_1 (grid0.coords t) := fun h => by
  have := (hcond0_1 t).mp h; omega
theorem condB0 (t : Fin cfg0.N) (h0 : ¬t.val % 2 = 0) : ¬cond0_0 (grid0.coords t) := fun h => h0 ((hcond0_0 t).mp h)
theorem condB1 (t : Fin cfg0.N) (h0 : ¬t.val % 2 = 0) : cond0_1 (grid0.coords t) := (hcond0_1 t).mpr (by omega)

theorem acc_A (c : Dev nD) (t : Fin cfg0.N) (h0 : t.val % 2 = 0) :
    acc V c t = sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condA0 t h0) (condA1 t h0) (iblk0 V c 0 t) := by
  rw [sout0_A_eq, acc_even V c t h0]

theorem acc_B (c : Dev nD) (t : Fin cfg0.N) (h0 : ¬t.val % 2 = 0) :
    acc V c t = sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condB0 t h0) (condB1 t h0) (iblk0 V c 0 t) (iblk0 V c 1 t) (iblk0 V c 2 t) (iblk0 V c 3 t) (iblk0 V c 4 t) (acc V c (prev t)) := by
  rw [sout0_B_eq, acc_odd V c t h0]

theorem gate_B (c : Dev nD) (t : Fin cfg0.N) (h0 : ¬t.val % 2 = 0) :
    gateBlk V c t = out0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condB0 t h0) (condB1 t h0) (iblk0 V c 0 t) (iblk0 V c 1 t) (iblk0 V c 2 t) (iblk0 V c 3 t) (iblk0 V c 4 t) (acc V c (prev t)) := by
  rw [out0_B_eq]; unfold gateBlk; rw [acc_odd V c t h0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 8 := lt_of_lt_of_eq t.isLt (show cfg0.N = 8 from N_0)
  by_cases h0 : t.val % 2 = 0
  · rw [Dat.leavesExact_idle (dat0 V c) 5 t (idleAt0_5_A t (condA0 t h0) (condA1 t h0)) (noFlush0_5_A t (condA0 t h0) (condA1 t h0))]
    rw [show (⟨t.val, t.isLt⟩ : Fin cfg0.N) = t from rfl, acc_A V c t h0]
    unfold sout0_A
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (condA0 t h0) (condA1 t h0) (iblk0 V c 0 t)).2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (condA0 t h0) (condA1 t h0) (iblk0 V c 0 t)).2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    rw [show (dat0 V c).leavesExact 5 t = owns (c : Thread nD τ) (ms0_5 t) fullShare ((dat0 V c).after 5 t) from by
      unfold Dat.leavesExact; rw [liveAt0_5_B t (condB0 t h0) (condB1 t h0)], after0_5]
    rw [show (⟨t.val, t.isLt⟩ : Fin cfg0.N) = t from rfl, acc_B V c t h0, gate_B V c t h0]
    unfold sout0_B out0_B
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (condB0 t h0) (condB1 t h0) (iblk0 V c 0 t) (iblk0 V c 1 t) (iblk0 V c 2 t) (iblk0 V c 3 t) (iblk0 V c 4 t) (acc V c (prev t))).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.Kernel.R0

end
-- ==== Proof.K.Region1.lean ====
import proofs.«104051_j49684181680676_2_alg».proof.Proof.Gen.Kernel.Launch
import proofs.«104051_j49684181680676_2_alg».proof.Proof.Gen.Kernel.Skeleton
import proofs.«104051_j49684181680676_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds at the first point of each row of eight. -/
theorem hcond1_0 : ∀ t : Fin cfg1.N, cond1_0 (grid1.coords t) ↔ t.val % 8 = 0 :=
  (by decide +kernel : ∀ t : Fin grid1.N, cond1_0 (grid1.coords t) ↔ t.val % 8 = 0)

section Regions
variable (V : (c : Dev nD) → (b : Ref sig .tc) → Buf (Elt F) ((c : Thread nD τ).loc b))

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the row of eight that `t` lies in: where the carried scratch was last filled. -/
def rowStart (t : Fin cfg1.N) : Fin cfg1.N := ⟨t.val - t.val % 8, by have := t.isLt; omega⟩

theorem rowStart_of_mod {t : Fin cfg1.N} (h : t.val % 8 = 0) : rowStart t = t := by
  apply Fin.ext; show t.val - t.val % 8 = t.val; omega

theorem rowStart_succ {n : ℕ} (hn : n + 1 < cfg1.N) (h : ¬ (n + 1) % 8 = 0) :
    rowStart ⟨n + 1, hn⟩ = rowStart ⟨n, Nat.lt_of_succ_lt hn⟩ := by
  apply Fin.ext; show (n + 1) - (n + 1) % 8 = n - n % 8; omega

/-- What the scratch holds after point `t`: the gate block of the row, broadcast along the lanes. -/
def scr (c : Dev nD) (t : Fin cfg1.N) : Vec F S8x64x1x128 .f32 := k1_pay1 (iblk1 V c 1 (rowStart t))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's triple, by case -/

theorem hz4 : (![0, 0, 0, 0] : Fin 4 → ℕ) = fun _ => 0 := by
  funext a; fin_cases a <;> rfl
theorem hz2 : (![0, 0] : Fin 2 → ℕ) = fun _ => 0 := by
  funext a; fin_cases a <;> rfl

/-- The one piece a store through the whole-shape rectangle at zero offsets leaves covers the shape. -/
theorem cover_unit {S : Shape} {e : EltTy} {off : Fin S.rank → ℕ} (h : off = fun _ => 0) (inb : ∀ a, off a + S.size a ≤ S.size a)
    (w : S.Idx → Elt F e) :
    ∀ y : S.Idx, ∃ p ∈ ([⟨Rect.unit off S.size inb, w⟩] : List (View.Piece (Elt F) S e)), y ∈ p.1.set :=
  fun y => ⟨_, List.mem_singleton_self _, View.mem_set_unit_zero h inb y⟩

set_option maxHeartbeats 1000000 in
theorem sound_kernel1_B (c : Dev nD) (E : Set ℕ) (i : grid1.Coords)
    (arg2 : Memref sig .tc .vmem S8x64x16x128 .f32) (harg2 : arg2.IsWhole) (arg3 : Memref sig .tc .vmem S8x64 .f32) (harg3 : arg3.IsWhole)
    (arg4 : Memref sig .tc .vmem S8x64x16x128 .f32) (harg4 : arg4.IsWhole) (arg5 : Memref sig .tc .vmem S8x64x1x128 .f32) (harg5 : arg5.IsWhole)
    (hc0 : ¬cond1_0 i)
    (x0 : Vec F S8x64x16x128 .f32) (g0 : Vec F S8x64 .f32) (xs0 : Vec F S8x64x1x128 .f32) (K : PUnit → sProp 𝕄) :
    iprop(owns (c : Thread nD τ) arg2 fullShare x0 ∗ owns (c : Thread nD τ) arg3 fullShare g0 ∗ (∃ d, owns (c : Thread nD τ) arg4 fullShare d)
        ∗ owns (c : Thread nD τ) arg5 fullShare xs0
        ∗ (iprop(owns (c : Thread nD τ) arg2 fullShare x0 ∗ owns (c : Thread nD τ) arg3 fullShare g0
            ∗ owns (c : Thread nD τ) arg4 fullShare (k1_pay2 x0 xs0) ∗ owns (c : Thread nD τ) arg5 fullShare xs0) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_unit hz4 _ _), View.canon_unit_zero hz4]
    simp only [View.readAt_eq_ld, hf0, hfs0]
    exact congrArg₂ k1_pay2 (View.ld_unit_zero hz4 _ x0) (View.ld_unit_zero hz4 _ xs0)
  iexists _; isplitr; · ipureintro; exact harg5.read_unread _
  iexact HS0

set_option maxHeartbeats 1000000 in
theorem sound_kernel1_A (c : Dev nD) (E : Set ℕ) (i : grid1.Coords)
    (arg2 : Memref sig .tc .vmem S8x64x16x128 .f32) (harg2 : arg2.IsWhole) (arg3 : Memref sig .tc .vmem S8x64 .f32) (harg3 : arg3.IsWhole)
    (arg4 : Memref sig .tc .vmem S8x64x16x128 .f32) (harg4 : arg4.IsWhole) (arg5 : Memref sig .tc .vmem S8x64x1x128 .f32) (harg5 : arg5.IsWhole)
    (hc0 : cond1_0 i)
    (x0 : Vec F S8x64x16x128 .f32) (g0 : Vec F S8x64 .f32) (K : PUnit → sProp 𝕄) :
    iprop(owns (c : Thread nD τ) arg2 fullShare x0 ∗ owns (c : Thread nD τ) arg3 fullShare g0 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare g0
            ∗ owns (c : Thread nD τ) arg4 fullShare (k1_pay2 x0 (k1_pay1 g0)) ∗ owns (c : Thread nD τ) arg5 fullShare (k1_pay1 g0)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_unit hz4 _ _), View.canon_unit_zero hz4,
      View.readCov_unit_zero _ hz4]
    simp only [View.readAt_eq_ld, hf0, hf1]
    exact congrArg₂ k1_pay2 (View.ld_unit_zero hz4 _ x0) (congrArg k1_pay1 (View.ld_unit_zero hz2 _ g0))
  iexists _; isplitr
  swap; · iexact HS0
  ipureintro
  sl_unfold_words
  rw [View.read_writes_eq_canon _ _ _ (cover_unit hz4 _ _), View.canon_unit_zero hz4]
  simp only [View.readAt_eq_ld, hf1]
  exact congrArg k1_pay1 (View.ld_unit_zero hz2 _ g0)

/-! ## The invariant: the carried scratch and the other scoped buffers -/

/-- The scratch operand: a whole scoped buffer of the kernel's own, passed beside the windows and carried between points. -/
abbrev scM1 : Memref sig .tc .vmem S8x64x1x128 .f32 := Memref.whole cc1_scratch0

/-- The core's scoped buffers that are neither a staging buffer of this call nor its scratch, each whole at some contents. -/
def rest9 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f))

/-- The region invariant with the scratch owned as a memref at some contents, beside the other scoped buffers. -/
theorem PhiA1_eq (c : Dev nD) :
    (Pipeline.ΦA spec1 c : sProp 𝕄)
      = iprop(iprop((∃ d, owns (c : Thread nD τ) scM1 fullShare d) ∗ rest9 (F := F) c) ∗ (∃ r, prngReg c r)) := by
  unfold Pipeline.ΦA rest9; rw [scopedRest1_eq]; simp only [scM1, owns_whole]
  apply Idealize.SL.BI.Entails.antisymm
  · show (_ : sProp 𝕄) ⊢ _
    iintro ⟨⟨R1, R2, R3, R4, R5, R6, R7, R8, R9, HS⟩, Hg⟩
    isplitr [Hg]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    iexact Hg
  · show (_ : sProp 𝕄) ⊢ _
    iintro ⟨⟨HS, R1, R2, R3, R4, R5, R6, R7, R8, R9⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact HS
    iexact Hg

section Regions
variable (V : (c : Dev nD) → (b : Ref sig .tc) → Buf (Elt F) ((c : Thread nD τ).loc b))

/-- The region invariant before position `n`: before the first point whatever the launch hands over (every scoped
    buffer at some contents); after point `n` the scratch at that point's row's gate block broadcast along the lanes,
    the other scoped buffers at some contents, and the generator register at some state. -/
def PhiS1 (c : Dev nD) : (n : ℕ) → n ≤ cfg1.N → sProp 𝕄
  | 0, _ => Pipeline.ΦA spec1 c
  | n + 1, hn => iprop(iprop(owns (c : Thread nD τ) scM1 fullShare (scr V c ⟨n, hn⟩) ∗ rest9 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scr V c ⟨n, hn⟩) ∗ rest9 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scr V c ⟨n - 1, by omega⟩) ∗ rest9 (F := F) c) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at the block scaled by the row's gate; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (iblk1 V c 0 t) (scr V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay2 (iblk1 V c 0 t) (scr V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Regions

section Regions
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem rowStart_pred (t : Fin cfg1.N) (h : ¬ t.val % 8 = 0) (h' : t.val - 1 < cfg1.N) :
    rowStart t = rowStart ⟨t.val - 1, h'⟩ := by
  apply Fin.ext; show t.val - t.val % 8 = (t.val - 1) - (t.val - 1) % 8; omega

set_option maxHeartbeats 4800000 in
/-- The body at any point. The inputs' buffers hold their blocks. At a row's first point the scratch is refilled from the
    gate block, whatever it held; at the other points it holds what the point before left, which is the row's gate block
    broadcast along the lanes since the row's first point has not changed. Either way the output's buffer is left at the
    input block scaled by the scratch, and the scratch at the row's broadcast gate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  have hN : t.val < 32 := lt_of_lt_of_eq t.isLt (show cfg1.N = 32 from N_1)
  by_cases h0 : t.val % 8 = 0
  · have hsc : scr V c t = k1_pay1 (iblk1 V c 1 t) := by unfold scr; rw [rowStart_of_mod h0]
    rw [hsc]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply (sound_kernel1_A c Set.univ (grid1.coords t) _ _ _ _ _ _ _ _ ((hcond1_0 t).mpr h0) (iblk1 V c 0 t) (iblk1 V c 1 t) _)
      isplitl [H0]; · iexact H0
      isplitl [H1]; · iexact H1
      isplitl [H2]; · iexists _; iexact H2
      isplitl [HS0]; · iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply (sound_kernel1_A c Set.univ (grid1.coords t) _ _ _ _ _ _ _ _ ((hcond1_0 t).mpr h0) (iblk1 V c 0 t) (iblk1 V c 1 t) _)
      isplitl [H0]; · iexact H0
      isplitl [H1]; · iexact H1
      isplitl [H2]; · iexists _; iexact H2
      isplitl [HS0]; · iexists _; iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2
  · have hz : t.val ≠ 0 := by omega
    have hsc : scr V c t = scr V c ⟨t.val - 1, by omega⟩ := by unfold scr; rw [rowStart_pred t h0]
    rw [hsc]
    · rw [PhiS1_castSucc V c t, PhiS1_pos V c _ _ hz]
      iintro ⟨⟨⟨HS0, HR⟩, Hg⟩, Ho, ⟨%d0, H0⟩, ⟨%d1, H1⟩, ⟨%d2, H2⟩⟩
      iapply (sound_kernel1_B c Set.univ (grid1.coords t) _ _ _ _ _ _ _ _ (fun h => h0 ((hcond1_0 t).mp h)) (iblk1 V c 0 t) (iblk1 V c 1 t) (scr V c ⟨t.val - 1, by omega⟩) _)
      isplitl [H0]; · iexact H0
      isplitl [H1]; · iexact H1
      isplitl [H2]; · iexists _; iexact H2
      isplitl [HS0]; · iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitr [Hg]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Regions

end Cert.Kernel.R1

end
-- ==== Proof.K.Frame.lean ====
/-
  The run of the two-call program: the contents of the TensorCore's buffers at each boundary of @main (launch, after
  the two reshapes of the biases, after the pooling call, after the scaling call), the two calls as regions over the
  thread state "every unscoped buffer at the boundary's contents, the generator register at some state, nothing
  owed", and the run: every weakly fair execution ends with the result array at what the scaling call's write-backs
  leave and every argument as launched.
-/
import proofs.«104051_j49684181680676_2_alg».proof.Proof.Gen.Kernel.Regions
import proofs.«104051_j49684181680676_2_alg».proof.Proof.K.Region0
import proofs.«104051_j49684181680676_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.R0 Cert.Kernel.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two reshapes (the pooling call's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- After the pooling call: its arrays at what its write-backs leave, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- After the scaling call. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-! ### The reshapes write only the two reshaped biases -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = (dat1 (Ve2 m ρ) c).arrAt 0 cfg1.N := W3_arr m ρ c 0
    _ = W2 m ρ c (Proc.devRef .tc main_arg0) := ((dat1 (Ve2 m ρ) c).arrAt_in 0 rfl _).trans (A_eq1 (Ve2 m ρ) c 0)
    _ = (dat0 (Ve1 m ρ) c).arrAt 0 cfg0.N := W2_arr m ρ c 0
    _ = W1 m ρ c (Proc.devRef .tc main_arg0) := ((dat0 (Ve1 m ρ) c).arrAt_in 0 rfl _).trans (A_eq0 (Ve1 m ρ) c 0)
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = (dat0 (Ve1 m ρ) c).arrAt 1 cfg0.N := W2_arr m ρ c 1
    _ = W1 m ρ c (Proc.devRef .tc main_arg1) := ((dat0 (Ve1 m ρ) c).arrAt_in 1 rfl _).trans (A_eq0 (Ve1 m ρ) c 1)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = (dat0 (Ve1 m ρ) c).arrAt 3 cfg0.N := W2_arr m ρ c 3
    _ = W1 m ρ c (Proc.devRef .tc main_arg3) := ((dat0 (Ve1 m ρ) c).arrAt_in 3 rfl _).trans (A_eq0 (Ve1 m ρ) c 3)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- The result array ends at what the scaling call's write-backs leave. -/
theorem W3_main_v3 (c : Dev nD) : W3 m ρ c (Proc.devRef .tc main_v3) = (dat1 (Ve2 m ρ) c).arrAt 2 cfg1.N := W3_arr m ρ c 2

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve2 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The invariants' ends, the class's invariant spelt out -/

theorem hin0' (c : Dev nD) : (iprop(Pipeline.scopedRest (Ix := Unit) (Name := ℕ) (U := UR sig nD τ) (Lvl := ℕ) (Val := Elt F) spec0 c ∗ ∃ r, prngReg c r) : sProp 𝕄) ⊢ (dat0 (Ve1 m ρ) c).Φ 0 := by
  have h := hin0 (Ve1 m ρ) c; unfold Pipeline.ΦA at h; exact h
theorem hout0' (c : Dev nD) : (dat0 (Ve1 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout0 (Ve1 m ρ) c; unfold Pipeline.ΦA at h; exact h
theorem hin1' (c : Dev nD) : (iprop(Pipeline.scopedRest (Ix := Unit) (Name := ℕ) (U := UR sig nD τ) (Lvl := ℕ) (Val := Elt F) spec1 c ∗ ∃ r, prngReg c r) : sProp 𝕄) ⊢ (dat1 (Ve2 m ρ) c).Φ 0 := by
  have h := hin1 (Ve2 m ρ) c; unfold Pipeline.ΦA at h; exact h
theorem hout1' (c : Dev nD) : (dat1 (Ve2 m ρ) c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 (Ve2 m ρ) c; unfold Pipeline.ΦA at h; exact h

/-! ## The calls as regions -/

set_option backward.isDefEq.respectTransparency.types false in
/-- The pooling call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (Ve1 m ρ) c).Φ 0 from rfl]
    iintro ⟨Hp, -, Hr⟩
    iapply (hin0' m ρ c)
    isplitl [Hr]; · iexact Hr
    iexact Hp
  hout c := by
    rw [Pipeline.ownSems0_none, show (pdats m ρ 0 c).Φ (Fin.last _) = (dat0 (Ve1 m ρ) c).Φ (Fin.last cfg0.N) from rfl]
    have ho := hout0' m ρ c
    iintro H
    ihave H' := ho $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Ve2 m ρ) c).Φ 0 from rfl]
    iintro ⟨Hp, -, Hr⟩
    iapply (hin1' m ρ c)
    isplitl [Hr]; · iexact Hr
    iexact Hp
  hout c := by
    rw [Pipeline.ownSems0_none, show (pdats m ρ 1 c).Φ (Fin.last _) = (dat1 (Ve2 m ρ) c).Φ (Fin.last cfg1.N) from rfl]
    have ho := hout1' m ρ c
    iintro H
    ihave H' := ho $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve2 m ρ c) (Ve3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (hsegs m ρ) := (main_chain c).trans (by chain_rfl)

set_option backward.isDefEq.respectTransparency.types false in
/-- THE RUN: from any memory with zero counters every weakly fair execution of @main terminates, nothing faulting,
    with the result array at what the scaling call's write-backs leave and every argument as launched. -/
theorem run : θ_run defs (onTc (τ := τ) (main (F := F))) ⟨m, fun _ => 0, ρ⟩ (fun r => ∀ c : Dev nD,
      r.2.mem ((c.tc : Thread nD τ).loc main_v3) = (dat1 (Ve2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_main_v3 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Kernel.Hand

end
-- ==== Proof.K.Claim.lean ====
/-
  The word-level program runs and leaves its arguments unchanged.
-/
import proofs.«104051_j49684181680676_2_alg».proof.Defs
import proofs.«104051_j49684181680676_2_alg».proof.Proof.Gen.Kernel
import proofs.«104051_j49684181680676_2_alg».proof.Proof.Gen.Pre_finite_inputs
import proofs.«104051_j49684181680676_2_alg».proof.Proof.K.Frame

noncomputable section

namespace Cert.Proof.KClaims

open Idealize.ShloMosaic Idealize.ShloMosaic.TcCoe Idealize.SL.Sem

/-- Every run of the word-level program terminates without a fault and ends with its five arguments as they were. -/
theorem frame_k : Cert.frame_Kernel := fun m ρ _ =>
  (θ_run (Cert.Kernel.defs (F := Bits)) _ _).mono (fun _ h c => (h c).2) (Cert.Kernel.Hand.run (F := Bits) m ρ)

end Cert.Proof.KClaims

end
-- ==== Proof.KI.Region0Base.lean ====
/-
  Region 0 (the pooling call with the gate in its last step), the part every case shares: the two branch
  conditions decided over the 4 × 2 grid, where the output window is idle, the staging memrefs at a point, and the
  region's invariant spelt with the carried accumulator apart from the other scoped buffers.
-/
import proofs.«104051_j49684181680676_2_alg».proof.Proof.Gen.KernelIdeal.Launch
import proofs.«104051_j49684181680676_2_alg».proof.Proof.Gen.KernelIdeal.Skeleton
import proofs.«104051_j49684181680676_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions over the grid -/

/-- The first branch is taken where the second grid coordinate is 0: the accumulator is zeroed there. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch is taken where the second grid coordinate is 1: the gate is computed and stored there. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points nothing is stored into the output window and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points the output window is stored whole. -/
theorem liveAt0_5_B : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S8x64x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S8x64 .f32 := Memref.whole cc0_scratch0

/-! ## The region's invariant, the accumulator apart -/

/-- The scoped buffers that are neither a staging buffer of this call nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant: the accumulator at some contents, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

/-! ## The windows' blocks, at the contents the region is entered from -/

section Blocks

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.R0

end
-- ==== Proof.KI.Region0RunA.lean ====
/-
  Region 0 at a point whose second grid coordinate is 0: the accumulator is zeroed, the block's sums over its two
  spatial axes are added to it, and nothing is stored into the output window.
-/
import proofs.«104051_j49684181680676_2_alg».proof.Proof.Gen.KernelIdeal.Launch
import proofs.«104051_j49684181680676_2_alg».proof.Proof.Gen.KernelIdeal.Skeleton
import proofs.«104051_j49684181680676_2_alg».proof.Proof.Gen.KernelIdeal.Points
import proofs.«104051_j49684181680676_2_alg».proof.Proof.KI.Region0Base
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The accumulator as a view: what it holds is stated through it. -/
abbrev VS0 : View sig .tc .vmem S8x64 .f32 := (scM0 : Memref sig .tc .vmem S8x64 .f32).view

set_option maxHeartbeats 1000000 in
/-- The body's run at such a point, on whole memrefs: the inputs and the untouched output buffer are handed back as
    they were, the accumulator (found at anything) with the pieces its two stores write. -/
noncomputable def kernelRun0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) :
    { LS0 : List (View.Piece (Elt F) S8x64 .f32) //
      ∀ (x1 : Vec F S16x64 .f32) (x2 : Vec F S1x16 .f32) (x3 : Vec F S64x16 .f32) (x4 : Vec F S1x64 .f32) (xi5 : Vec F S8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, fun x1 x2 x3 x4 xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

/-- The accumulator's pieces cover it. -/
theorem scover0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) (y : S8x64.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S8x64.size (by sl_kernel_rfl) y

/-- What the accumulator holds after such a point: its pieces read back. -/
def sout0_A (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) : Vec F S8x64 .f32 :=
  VS0.read (Elt F) (VS0.writes (Elt F) VS0.junk (kernelRun0_A c i arg2 harg2 arg3 harg3 arg4 harg4 arg5 harg5 arg6 harg6 arg7 harg7 arg8 harg8 hc0 hc1 x0).1)

/-- It is the block's sums added to the zero splat. -/
theorem sout0_A_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : cond0_0 i) (hc1 : ¬cond0_1 i)
    (x0 : Vec F S8x64x64x128 .f32) :
    sout0_A c i arg2 harg2 arg3 harg3 arg4 harg4 arg5 harg5 arg6 harg6 arg7 harg7 arg8 harg8 hc0 hc1 x0 = k0_pay2 x0 (k0_pay1 (F := F)) := by
  unfold sout0_A
  rw [View.read_writes_eq_canon _ _ _ (scover0_A c i arg2 harg2 arg3 harg3 arg4 harg4 arg5 harg5 arg6 harg6 arg7 harg7 arg8 harg8 hc0 hc1 x0)]
  unfold kernelRun0_A
  dsimp only
  sl_unfold_words
  rw [View.canon_cons_unit_zero (S := S8x64) hz2, View.readCov_unit_zero (S := S8x64) _ hz2]
  simp only [View.readAt_eq_ld, harg2.read_unread, View.ld_unit_zero (S := S8x64x64x128) hz4]

end Cert.KernelIdeal.R0

end
-- ==== Proof.KI.Region0RunB.lean ====
/-
  Region 0 at a point whose second grid coordinate is 1: the block's sums are added to the accumulator the point
  before left, and the gate of the accumulated row sums is stored into the output window.
-/
import proofs.«104051_j49684181680676_2_alg».proof.Proof.Gen.KernelIdeal.Launch
import proofs.«104051_j49684181680676_2_alg».proof.Proof.Gen.KernelIdeal.Skeleton
import proofs.«104051_j49684181680676_2_alg».proof.Proof.Gen.KernelIdeal.Points
import proofs.«104051_j49684181680676_2_alg».proof.Proof.KI.Region0RunA
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One staging buffer of the output window, through which its contents are stated. -/
abbrev VO5 : View sig .tc .vmem S8x64 .f32 := (Memref.whole cc0_stg5_0 : Memref sig .tc .vmem S8x64 .f32).view

set_option maxHeartbeats 2000000 in
/-- The body's run at such a point, on whole memrefs: the inputs handed back as they were, the accumulator (found at
    `xs0`) and the output buffer (found at anything) with the pieces the stores write. -/
noncomputable def kernelRun0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    Σ' (L5 : List (View.Piece (Elt F) S8x64 .f32)), { LS0 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, ?_, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

theorem cover0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) (y : S8x64.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S8x64.size (by sl_kernel_rfl) y

theorem scover0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) (y : S8x64.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S8x64.size (by sl_kernel_rfl) y

/-- What the output window's buffer holds after such a point. -/
def out0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) : Vec F S8x64 .f32 :=
  VO5.read (Elt F) (VO5.writes (Elt F) VO5.junk (kernelRun0_B c i arg2 harg2 arg3 harg3 arg4 harg4 arg5 harg5 arg6 harg6 arg7 harg7 arg8 harg8 hc0 hc1 x0 x1 x2 x3 x4 xs0).1)

/-- What the accumulator holds after such a point. -/
def sout0_B (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) : Vec F S8x64 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).2.1)

/-- The accumulator: the block's sums added to what it held. -/
theorem sout0_B_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    sout0_B c i arg2 harg2 arg3 harg3 arg4 harg4 arg5 harg5 arg6 harg6 arg7 harg7 arg8 harg8 hc0 hc1 x0 x1 x2 x3 x4 xs0 = k0_pay2 x0 xs0 := by
  unfold sout0_B
  rw [View.read_writes_eq_canon _ _ _ (scover0_B c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg8.read_unread, View.ld_unit_zero (S := S8x64x64x128) hz4, View.ld_unit_zero (S := S8x64) hz2]

/-- The output: the gate of the new accumulator. -/
theorem out0_B_eq (c : Dev nD) (i : grid0.Coords) (arg2 : Memref sig .tc .vmem S8x64x64x128 .f32) (harg2 : arg2.IsWhole) (arg3 : Memref sig .tc .vmem S16x64 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S8x64 .f32) (harg7 : arg7.IsWhole) (arg8 : Memref sig .tc .vmem S8x64 .f32) (harg8 : arg8.IsWhole) (hc0 : ¬cond0_0 i) (hc1 : cond0_1 i)
    (x0 : Vec F S8x64x64x128 .f32) (x1 : Vec F S16x64 .f32) (x2 : Vec F S1x16 .f32) (x3 : Vec F S64x16 .f32) (x4 : Vec F S1x64 .f32) (xs0 : Vec F S8x64 .f32) :
    out0_B c i arg2 harg2 arg3 harg3 arg4 harg4 arg5 harg5 arg6 harg6 arg7 harg7 arg8 harg8 hc0 hc1 x0 x1 x2 x3 x4 xs0 = k0_pay3 (k0_pay2 x0 xs0) x1 x2 x3 x4 := by
  unfold out0_B
  rw [View.read_writes_eq_canon _ _ _ (cover0_B c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S8x64x64x128) hz4, View.ld_unit_zero (S := S8x64) hz2, View.ld_unit_zero (S := S16x64) hz2, View.ld_unit_zero (S := S1x16) hz2, View.ld_unit_zero (S := S64x16) hz2, View.ld_unit_zero (S := S1x64) hz2, View.readCov_unit_zero (S := S8x64) _ hz2]

end Cert.KernelIdeal.R0

end
-- ==== Proof.KI.Region0.lean ====
/-
  Region 0: the proof data and the body obligation.

  The grid is 4 × 2, the second coordinate `h` running fastest. At `h = 0` the accumulator is zeroed and the first
  half of the spatial sums is added; at `h = 1` the second half is added and the gate of the accumulated sums is
  stored into the output window, which is written back there. So after point `t` the accumulator holds the sums of
  block `t` over the zero splat (`h = 0`), or of block `t` over those of block `t - 1` over the zero splat (`h = 1`).
-/
import proofs.«104051_j49684181680676_2_alg».proof.Proof.Gen.KernelIdeal.Launch
import proofs.«104051_j49684181680676_2_alg».proof.Proof.Gen.KernelIdeal.Skeleton
import proofs.«104051_j49684181680676_2_alg».proof.Proof.Gen.KernelIdeal.Points
import proofs.«104051_j49684181680676_2_alg».proof.Proof.KI.Region0RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point before. -/
def prev (t : Fin cfg0.N) : Fin cfg0.N := ⟨t.val - 1, by have := t.isLt; omega⟩

/-- What the accumulator holds after point `t`. -/
def acc (c : Dev nD) (t : Fin cfg0.N) : Vec F S8x64 .f32 :=
  if t.val % 2 = 0 then k0_pay2 (iblk0 V c 0 t) (k0_pay1 (F := F))
  else k0_pay2 (iblk0 V c 0 t) (k0_pay2 (iblk0 V c 0 (prev t)) (k0_pay1 (F := F)))

/-- The gate block stored at an odd point: of the accumulator there and the weight and bias blocks. -/
def gateBlk (c : Dev nD) (t : Fin cfg0.N) : Vec F S8x64 .f32 :=
  k0_pay3 (acc V c t) (iblk0 V c 1 t) (iblk0 V c 2 t) (iblk0 V c 3 t) (iblk0 V c 4 t)

theorem acc_even (c : Dev nD) (t : Fin cfg0.N) (h0 : t.val % 2 = 0) :
    acc V c t = k0_pay2 (iblk0 V c 0 t) (k0_pay1 (F := F)) := by unfold acc; rw [if_pos h0]

theorem acc_odd (c : Dev nD) (t : Fin cfg0.N) (h0 : ¬t.val % 2 = 0) :
    acc V c t = k0_pay2 (iblk0 V c 0 t) (acc V c (prev t)) := by
  have hp : (prev t).val % 2 = 0 := by unfold prev; dsimp only; omega
  rw [acc_even V c (prev t) hp]; unfold acc; rw [if_neg h0]

/-- The invariant before position `n`: the class's before the first point; afterwards the accumulator at what the
    point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc V c ⟨n, hn⟩) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc V c ⟨n, hn⟩) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc V c ⟨n - 1, by omega⟩) ∗ rest0 c) ∗ (∃ r, prngReg c r)) := by
  cases n with
  | zero => exact absurd rfl hz
  | succ n => rfl

/-- The proof data: the arrays as the region finds them; after the body each input's buffer at its block and the
    output's at the gate block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateBlk V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateBlk V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The two cases' contents are the runs' found pieces -/

theorem condA0 (t : Fin cfg0.N) (h0 : t.val % 2 = 0) : cond0_0 (grid0.coords t) := (hcond0_0 t).mpr h0
theorem condA1 (t : Fin cfg0.N) (h0 : t.val % 2 = 0) : ¬cond0_1 (grid0.coords t) := fun h => by
  have := (hcond0_1 t).mp h; omega
theorem condB0 (t : Fin cfg0.N) (h0 : ¬t.val % 2 = 0) : ¬cond0_0 (grid0.coords t) := fun h => h0 ((hcond0_0 t).mp h)
theorem condB1 (t : Fin cfg0.N) (h0 : ¬t.val % 2 = 0) : cond0_1 (grid0.coords t) := (hcond0_1 t).mpr (by omega)

theorem acc_A (c : Dev nD) (t : Fin cfg0.N) (h0 : t.val % 2 = 0) :
    acc V c t = sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condA0 t h0) (condA1 t h0) (iblk0 V c 0 t) := by
  rw [sout0_A_eq, acc_even V c t h0]

theorem acc_B (c : Dev nD) (t : Fin cfg0.N) (h0 : ¬t.val % 2 = 0) :
    acc V c t = sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condB0 t h0) (condB1 t h0) (iblk0 V c 0 t) (iblk0 V c 1 t) (iblk0 V c 2 t) (iblk0 V c 3 t) (iblk0 V c 4 t) (acc V c (prev t)) := by
  rw [sout0_B_eq, acc_odd V c t h0]

theorem gate_B (c : Dev nD) (t : Fin cfg0.N) (h0 : ¬t.val % 2 = 0) :
    gateBlk V c t = out0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (condB0 t h0) (condB1 t h0) (iblk0 V c 0 t) (iblk0 V c 1 t) (iblk0 V c 2 t) (iblk0 V c 3 t) (iblk0 V c 4 t) (acc V c (prev t)) := by
  rw [out0_B_eq]; unfold gateBlk; rw [acc_odd V c t h0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 8 := lt_of_lt_of_eq t.isLt (show cfg0.N = 8 from N_0)
  by_cases h0 : t.val % 2 = 0
  · rw [Dat.leavesExact_idle (dat0 V c) 5 t (idleAt0_5_A t (condA0 t h0) (condA1 t h0)) (noFlush0_5_A t (condA0 t h0) (condA1 t h0))]
    rw [show (⟨t.val, t.isLt⟩ : Fin cfg0.N) = t from rfl, acc_A V c t h0]
    unfold sout0_A
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (condA0 t h0) (condA1 t h0) (iblk0 V c 0 t)).2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (condA0 t h0) (condA1 t h0) (iblk0 V c 0 t)).2 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    rw [show (dat0 V c).leavesExact 5 t = owns (c : Thread nD τ) (ms0_5 t) fullShare ((dat0 V c).after 5 t) from by
      unfold Dat.leavesExact; rw [liveAt0_5_B t (condB0 t h0) (condB1 t h0)], after0_5]
    rw [show (⟨t.val, t.isLt⟩ : Fin cfg0.N) = t from rfl, acc_B V c t h0, gate_B V c t h0]
    unfold sout0_B out0_B
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (condB0 t h0) (condB1 t h0) (iblk0 V c 0 t) (iblk0 V c 1 t) (iblk0 V c 2 t) (iblk0 V c 3 t) (iblk0 V c 4 t) (acc V c (prev t))).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.KernelIdeal.R0

end
-- ==== Proof.KI.Region1.lean ====
import proofs.«104051_j49684181680676_2_alg».proof.Proof.Gen.KernelIdeal.Launch
import proofs.«104051_j49684181680676_2_alg».proof.Proof.Gen.KernelIdeal.Skeleton
import proofs.«104051_j49684181680676_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds at the first point of each row of eight. -/
theorem hcond1_0 : ∀ t : Fin cfg1.N, cond1_0 (grid1.coords t) ↔ t.val % 8 = 0 :=
  (by decide +kernel : ∀ t : Fin grid1.N, cond1_0 (grid1.coords t) ↔ t.val % 8 = 0)

section Regions
variable (V : (c : Dev nD) → (b : Ref sig .tc) → Buf (Elt F) ((c : Thread nD τ).loc b))

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the row of eight that `t` lies in: where the carried scratch was last filled. -/
def rowStart (t : Fin cfg1.N) : Fin cfg1.N := ⟨t.val - t.val % 8, by have := t.isLt; omega⟩

theorem rowStart_of_mod {t : Fin cfg1.N} (h : t.val % 8 = 0) : rowStart t = t := by
  apply Fin.ext; show t.val - t.val % 8 = t.val; omega

theorem rowStart_succ {n : ℕ} (hn : n + 1 < cfg1.N) (h : ¬ (n + 1) % 8 = 0) :
    rowStart ⟨n + 1, hn⟩ = rowStart ⟨n, Nat.lt_of_succ_lt hn⟩ := by
  apply Fin.ext; show (n + 1) - (n + 1) % 8 = n - n % 8; omega

/-- What the scratch holds after point `t`: the gate block of the row, broadcast along the lanes. -/
def scr (c : Dev nD) (t : Fin cfg1.N) : Vec F S8x64x1x128 .f32 := k1_pay1 (iblk1 V c 1 (rowStart t))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's triple, by case -/

theorem hz4 : (![0, 0, 0, 0] : Fin 4 → ℕ) = fun _ => 0 := by
  funext a; fin_cases a <;> rfl
theorem hz2 : (![0, 0] : Fin 2 → ℕ) = fun _ => 0 := by
  funext a; fin_cases a <;> rfl

/-- The one piece a store through the whole-shape rectangle at zero offsets leaves covers the shape. -/
theorem cover_unit {S : Shape} {e : EltTy} {off : Fin S.rank → ℕ} (h : off = fun _ => 0) (inb : ∀ a, off a + S.size a ≤ S.size a)
    (w : S.Idx → Elt F e) :
    ∀ y : S.Idx, ∃ p ∈ ([⟨Rect.unit off S.size inb, w⟩] : List (View.Piece (Elt F) S e)), y ∈ p.1.set :=
  fun y => ⟨_, List.mem_singleton_self _, View.mem_set_unit_zero h inb y⟩

set_option maxHeartbeats 1000000 in
theorem sound_kernel1_B (c : Dev nD) (E : Set ℕ) (i : grid1.Coords)
    (arg2 : Memref sig .tc .vmem S8x64x16x128 .f32) (harg2 : arg2.IsWhole) (arg3 : Memref sig .tc .vmem S8x64 .f32) (harg3 : arg3.IsWhole)
    (arg4 : Memref sig .tc .vmem S8x64x16x128 .f32) (harg4 : arg4.IsWhole) (arg5 : Memref sig .tc .vmem S8x64x1x128 .f32) (harg5 : arg5.IsWhole)
    (hc0 : ¬cond1_0 i)
    (x0 : Vec F S8x64x16x128 .f32) (g0 : Vec F S8x64 .f32) (xs0 : Vec F S8x64x1x128 .f32) (K : PUnit → sProp 𝕄) :
    iprop(owns (c : Thread nD τ) arg2 fullShare x0 ∗ owns (c : Thread nD τ) arg3 fullShare g0 ∗ (∃ d, owns (c : Thread nD τ) arg4 fullShare d)
        ∗ owns (c : Thread nD τ) arg5 fullShare xs0
        ∗ (iprop(owns (c : Thread nD τ) arg2 fullShare x0 ∗ owns (c : Thread nD τ) arg3 fullShare g0
            ∗ owns (c : Thread nD τ) arg4 fullShare (k1_pay2 x0 xs0) ∗ owns (c : Thread nD τ) arg5 fullShare xs0) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_unit hz4 _ _), View.canon_unit_zero hz4]
    simp only [View.readAt_eq_ld, hf0, hfs0]
    exact congrArg₂ k1_pay2 (View.ld_unit_zero hz4 _ x0) (View.ld_unit_zero hz4 _ xs0)
  iexists _; isplitr; · ipureintro; exact harg5.read_unread _
  iexact HS0

set_option maxHeartbeats 1000000 in
theorem sound_kernel1_A (c : Dev nD) (E : Set ℕ) (i : grid1.Coords)
    (arg2 : Memref sig .tc .vmem S8x64x16x128 .f32) (harg2 : arg2.IsWhole) (arg3 : Memref sig .tc .vmem S8x64 .f32) (harg3 : arg3.IsWhole)
    (arg4 : Memref sig .tc .vmem S8x64x16x128 .f32) (harg4 : arg4.IsWhole) (arg5 : Memref sig .tc .vmem S8x64x1x128 .f32) (harg5 : arg5.IsWhole)
    (hc0 : cond1_0 i)
    (x0 : Vec F S8x64x16x128 .f32) (g0 : Vec F S8x64 .f32) (K : PUnit → sProp 𝕄) :
    iprop(owns (c : Thread nD τ) arg2 fullShare x0 ∗ owns (c : Thread nD τ) arg3 fullShare g0 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare g0
            ∗ owns (c : Thread nD τ) arg4 fullShare (k1_pay2 x0 (k1_pay1 g0)) ∗ owns (c : Thread nD τ) arg5 fullShare (k1_pay1 g0)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_unit hz4 _ _), View.canon_unit_zero hz4,
      View.readCov_unit_zero _ hz4]
    simp only [View.readAt_eq_ld, hf0, hf1]
    exact congrArg₂ k1_pay2 (View.ld_unit_zero hz4 _ x0) (congrArg k1_pay1 (View.ld_unit_zero hz2 _ g0))
  iexists _; isplitr
  swap; · iexact HS0
  ipureintro
  sl_unfold_words
  rw [View.read_writes_eq_canon _ _ _ (cover_unit hz4 _ _), View.canon_unit_zero hz4]
  simp only [View.readAt_eq_ld, hf1]
  exact congrArg k1_pay1 (View.ld_unit_zero hz2 _ g0)

/-! ## The invariant: the carried scratch and the other scoped buffers -/

/-- The scratch operand: a whole scoped buffer of the kernel's own, passed beside the windows and carried between points. -/
abbrev scM1 : Memref sig .tc .vmem S8x64x1x128 .f32 := Memref.whole cc1_scratch0

/-- The core's scoped buffers that are neither a staging buffer of this call nor its scratch, each whole at some contents. -/
def rest9 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f))

/-- The region invariant with the scratch owned as a memref at some contents, beside the other scoped buffers. -/
theorem PhiA1_eq (c : Dev nD) :
    (Pipeline.ΦA spec1 c : sProp 𝕄)
      = iprop(iprop((∃ d, owns (c : Thread nD τ) scM1 fullShare d) ∗ rest9 (F := F) c) ∗ (∃ r, prngReg c r)) := by
  unfold Pipeline.ΦA rest9; rw [scopedRest1_eq]; simp only [scM1, owns_whole]
  apply Idealize.SL.BI.Entails.antisymm
  · show (_ : sProp 𝕄) ⊢ _
    iintro ⟨⟨R1, R2, R3, R4, R5, R6, R7, R8, R9, HS⟩, Hg⟩
    isplitr [Hg]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    iexact Hg
  · show (_ : sProp 𝕄) ⊢ _
    iintro ⟨⟨HS, R1, R2, R3, R4, R5, R6, R7, R8, R9⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact HS
    iexact Hg

section Regions
variable (V : (c : Dev nD) → (b : Ref sig .tc) → Buf (Elt F) ((c : Thread nD τ).loc b))

/-- The region invariant before position `n`: before the first point whatever the launch hands over (every scoped
    buffer at some contents); after point `n` the scratch at that point's row's gate block broadcast along the lanes,
    the other scoped buffers at some contents, and the generator register at some state. -/
def PhiS1 (c : Dev nD) : (n : ℕ) → n ≤ cfg1.N → sProp 𝕄
  | 0, _ => Pipeline.ΦA spec1 c
  | n + 1, hn => iprop(iprop(owns (c : Thread nD τ) scM1 fullShare (scr V c ⟨n, hn⟩) ∗ rest9 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scr V c ⟨n, hn⟩) ∗ rest9 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scr V c ⟨n - 1, by omega⟩) ∗ rest9 (F := F) c) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at the block scaled by the row's gate; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (iblk1 V c 0 t) (scr V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay2 (iblk1 V c 0 t) (scr V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Regions

section Regions
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem rowStart_pred (t : Fin cfg1.N) (h : ¬ t.val % 8 = 0) (h' : t.val - 1 < cfg1.N) :
    rowStart t = rowStart ⟨t.val - 1, h'⟩ := by
  apply Fin.ext; show t.val - t.val % 8 = (t.val - 1) - (t.val - 1) % 8; omega

set_option maxHeartbeats 4800000 in
/-- The body at any point. The inputs' buffers hold their blocks. At a row's first point the scratch is refilled from the
    gate block, whatever it held; at the other points it holds what the point before left, which is the row's gate block
    broadcast along the lanes since the row's first point has not changed. Either way the output's buffer is left at the
    input block scaled by the scratch, and the scratch at the row's broadcast gate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  have hN : t.val < 32 := lt_of_lt_of_eq t.isLt (show cfg1.N = 32 from N_1)
  by_cases h0 : t.val % 8 = 0
  · have hsc : scr V c t = k1_pay1 (iblk1 V c 1 t) := by unfold scr; rw [rowStart_of_mod h0]
    rw [hsc]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply (sound_kernel1_A c Set.univ (grid1.coords t) _ _ _ _ _ _ _ _ ((hcond1_0 t).mpr h0) (iblk1 V c 0 t) (iblk1 V c 1 t) _)
      isplitl [H0]; · iexact H0
      isplitl [H1]; · iexact H1
      isplitl [H2]; · iexists _; iexact H2
      isplitl [HS0]; · iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply (sound_kernel1_A c Set.univ (grid1.coords t) _ _ _ _ _ _ _ _ ((hcond1_0 t).mpr h0) (iblk1 V c 0 t) (iblk1 V c 1 t) _)
      isplitl [H0]; · iexact H0
      isplitl [H1]; · iexact H1
      isplitl [H2]; · iexists _; iexact H2
      isplitl [HS0]; · iexists _; iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2
  · have hz : t.val ≠ 0 := by omega
    have hsc : scr V c t = scr V c ⟨t.val - 1, by omega⟩ := by unfold scr; rw [rowStart_pred t h0]
    rw [hsc]
    · rw [PhiS1_castSucc V c t, PhiS1_pos V c _ _ hz]
      iintro ⟨⟨⟨HS0, HR⟩, Hg⟩, Ho, ⟨%d0, H0⟩, ⟨%d1, H1⟩, ⟨%d2, H2⟩⟩
      iapply (sound_kernel1_B c Set.univ (grid1.coords t) _ _ _ _ _ _ _ _ (fun h => h0 ((hcond1_0 t).mp h)) (iblk1 V c 0 t) (iblk1 V c 1 t) (scr V c ⟨t.val - 1, by omega⟩) _)
      isplitl [H0]; · iexact H0
      isplitl [H1]; · iexact H1
      isplitl [H2]; · iexists _; iexact H2
      isplitl [HS0]; · iexact HS0
      iintro ⟨H0, H1, H2, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitr [Hg]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Regions

end Cert.KernelIdeal.R1

end
-- ==== Proof.KI.Frame.lean ====
/-
  The run of the two-call program: the contents of the TensorCore's buffers at each boundary of @main (launch, after
  the two reshapes of the biases, after the pooling call, after the scaling call), the two calls as regions over the
  thread state "every unscoped buffer at the boundary's contents, the generator register at some state, nothing
  owed", and the run: every weakly fair execution ends with the result array at what the scaling call's write-backs
  leave and every argument as launched.
-/
import proofs.«104051_j49684181680676_2_alg».proof.Proof.Gen.KernelIdeal.Regions
import proofs.«104051_j49684181680676_2_alg».proof.Proof.KI.Region0
import proofs.«104051_j49684181680676_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R0 Cert.KernelIdeal.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two reshapes (the pooling call's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- After the pooling call: its arrays at what its write-backs leave, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- After the scaling call. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-! ### The reshapes write only the two reshaped biases -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = (dat1 (Ve2 m ρ) c).arrAt 0 cfg1.N := W3_arr m ρ c 0
    _ = W2 m ρ c (Proc.devRef .tc main_arg0) := ((dat1 (Ve2 m ρ) c).arrAt_in 0 rfl _).trans (A_eq1 (Ve2 m ρ) c 0)
    _ = (dat0 (Ve1 m ρ) c).arrAt 0 cfg0.N := W2_arr m ρ c 0
    _ = W1 m ρ c (Proc.devRef .tc main_arg0) := ((dat0 (Ve1 m ρ) c).arrAt_in 0 rfl _).trans (A_eq0 (Ve1 m ρ) c 0)
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = (dat0 (Ve1 m ρ) c).arrAt 1 cfg0.N := W2_arr m ρ c 1
    _ = W1 m ρ c (Proc.devRef .tc main_arg1) := ((dat0 (Ve1 m ρ) c).arrAt_in 1 rfl _).trans (A_eq0 (Ve1 m ρ) c 1)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = (dat0 (Ve1 m ρ) c).arrAt 3 cfg0.N := W2_arr m ρ c 3
    _ = W1 m ρ c (Proc.devRef .tc main_arg3) := ((dat0 (Ve1 m ρ) c).arrAt_in 3 rfl _).trans (A_eq0 (Ve1 m ρ) c 3)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- The result array ends at what the scaling call's write-backs leave. -/
theorem W3_main_v3 (c : Dev nD) : W3 m ρ c (Proc.devRef .tc main_v3) = (dat1 (Ve2 m ρ) c).arrAt 2 cfg1.N := W3_arr m ρ c 2

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve2 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The invariants' ends, the class's invariant spelt out -/

theorem hin0' (c : Dev nD) : (iprop(Pipeline.scopedRest (Ix := Unit) (Name := ℕ) (U := UR sig nD τ) (Lvl := ℕ) (Val := Elt F) spec0 c ∗ ∃ r, prngReg c r) : sProp 𝕄) ⊢ (dat0 (Ve1 m ρ) c).Φ 0 := by
  have h := hin0 (Ve1 m ρ) c; unfold Pipeline.ΦA at h; exact h
theorem hout0' (c : Dev nD) : (dat0 (Ve1 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout0 (Ve1 m ρ) c; unfold Pipeline.ΦA at h; exact h
theorem hin1' (c : Dev nD) : (iprop(Pipeline.scopedRest (Ix := Unit) (Name := ℕ) (U := UR sig nD τ) (Lvl := ℕ) (Val := Elt F) spec1 c ∗ ∃ r, prngReg c r) : sProp 𝕄) ⊢ (dat1 (Ve2 m ρ) c).Φ 0 := by
  have h := hin1 (Ve2 m ρ) c; unfold Pipeline.ΦA at h; exact h
theorem hout1' (c : Dev nD) : (dat1 (Ve2 m ρ) c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 (Ve2 m ρ) c; unfold Pipeline.ΦA at h; exact h

/-! ## The calls as regions -/

set_option backward.isDefEq.respectTransparency.types false in
/-- The pooling call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (Ve1 m ρ) c).Φ 0 from rfl]
    iintro ⟨Hp, -, Hr⟩
    iapply (hin0' m ρ c)
    isplitl [Hr]; · iexact Hr
    iexact Hp
  hout c := by
    rw [Pipeline.ownSems0_none, show (pdats m ρ 0 c).Φ (Fin.last _) = (dat0 (Ve1 m ρ) c).Φ (Fin.last cfg0.N) from rfl]
    have ho := hout0' m ρ c
    iintro H
    ihave H' := ho $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Ve2 m ρ) c).Φ 0 from rfl]
    iintro ⟨Hp, -, Hr⟩
    iapply (hin1' m ρ c)
    isplitl [Hr]; · iexact Hr
    iexact Hp
  hout c := by
    rw [Pipeline.ownSems0_none, show (pdats m ρ 1 c).Φ (Fin.last _) = (dat1 (Ve2 m ρ) c).Φ (Fin.last cfg1.N) from rfl]
    have ho := hout1' m ρ c
    iintro H
    ihave H' := ho $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve2 m ρ c) (Ve3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (hsegs m ρ) := (main_chain c).trans (by chain_rfl)

set_option backward.isDefEq.respectTransparency.types false in
/-- THE RUN: from any memory with zero counters every weakly fair execution of @main terminates, nothing faulting,
    with the result array at what the scaling call's write-backs leave and every argument as launched. -/
theorem run : θ_run defs (onTc (τ := τ) (main (F := F))) ⟨m, fun _ => 0, ρ⟩ (fun r => ∀ c : Dev nD,
      r.2.mem ((c.tc : Thread nD τ).loc main_v3) = (dat1 (Ve2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_main_v3 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Hand

end
-- ==== Proof.Spec.lean ====
/-
  The function both programs compute, on the extended reals, index by index.

  For an input `x` of shape [32, 64, 128, 128]: the spatial mean of channel (b, c) is the sum of its
  128 × 128 entries times 1/16384; a two-layer gate is applied to each batch row of means —
  `z ↦ z · σ(z)` after the first affine map (weights [16, 64], bias [16]), `σ` after the second
  (weights [64, 16], bias [64]), with `σ(z) = 1 / (1 + e^(-z))` —, and every entry of channel (b, c)
  is multiplied by the gate's value at (b, c).
-/
import Idealize.ShloMosaic.PureOps.Ideal
import Idealize.ShloMosaic.Lib.ValueIdx

noncomputable section

open scoped BigOperators

namespace Cert.Spec

open Idealize.ShloMosaic Idealize.ShloMosaic.ValueIdx

/-- The sum of channel (b, c) over its 128 × 128 spatial positions. -/
def pool (x : (⟨4, ![32, 64, 128, 128]⟩ : Shape).Idx → EReal) (b : Fin 32) (c : Fin 64) : EReal :=
  ∑ h : Fin 128, ∑ w : Fin 128, x (ix4 b c h w)

/-- The spatial mean: the sum times 1/16384. -/
def mean (x : (⟨4, ![32, 64, 128, 128]⟩ : Shape).Idx → EReal) (b : Fin 32) (c : Fin 64) : EReal :=
  pool x b c * ((1 / 16384 : ℝ) : EReal)

/-- The first affine map at hidden unit `j`, of a row `s` of 64 means. -/
def pre1 (s : Fin 64 → EReal) (w1 : (⟨2, ![16, 64]⟩ : Shape).Idx → EReal) (b1 : (⟨1, ![16]⟩ : Shape).Idx → EReal)
    (j : Fin 16) : EReal :=
  (∑ c : Fin 64, s c * w1 (ix2 j c)) + b1 (ix1 j)

/-- The hidden activation `z · σ(z)`. -/
def hid (s : Fin 64 → EReal) (w1 : (⟨2, ![16, 64]⟩ : Shape).Idx → EReal) (b1 : (⟨1, ![16]⟩ : Shape).Idx → EReal)
    (j : Fin 16) : EReal :=
  pre1 s w1 b1 j * Ideal.logistic (pre1 s w1 b1 j)

/-- The gate at channel `c`, of a row `s` of 64 means. -/
def gate (s : Fin 64 → EReal) (w1 : (⟨2, ![16, 64]⟩ : Shape).Idx → EReal) (b1 : (⟨1, ![16]⟩ : Shape).Idx → EReal)
    (w2 : (⟨2, ![64, 16]⟩ : Shape).Idx → EReal) (b2 : (⟨1, ![64]⟩ : Shape).Idx → EReal) (c : Fin 64) : EReal :=
  Ideal.logistic ((∑ j : Fin 16, hid s w1 b1 j * w2 (ix2 c j)) + b2 (ix1 c))

/-- The gate of batch row `b` at channel `c`, from the whole input. -/
def gateAt (x : (⟨4, ![32, 64, 128, 128]⟩ : Shape).Idx → EReal) (w1 : (⟨2, ![16, 64]⟩ : Shape).Idx → EReal)
    (b1 : (⟨1, ![16]⟩ : Shape).Idx → EReal) (w2 : (⟨2, ![64, 16]⟩ : Shape).Idx → EReal)
    (b2 : (⟨1, ![64]⟩ : Shape).Idx → EReal) (b : Fin 32) (c : Fin 64) : EReal :=
  gate (fun c' => mean x b c') w1 b1 w2 b2 c

/-- The result: every entry times its channel's gate. -/
def G (x : (⟨4, ![32, 64, 128, 128]⟩ : Shape).Idx → EReal) (w1 : (⟨2, ![16, 64]⟩ : Shape).Idx → EReal)
    (b1 : (⟨1, ![16]⟩ : Shape).Idx → EReal) (w2 : (⟨2, ![64, 16]⟩ : Shape).Idx → EReal)
    (b2 : (⟨1, ![64]⟩ : Shape).Idx → EReal) : (⟨4, ![32, 64, 128, 128]⟩ : Shape).Idx → EReal :=
  fun i => x i * gateAt x w1 b1 w2 b2 ⟨(i 0).val, (i 0).isLt⟩ ⟨(i 1).val, (i 1).isLt⟩

/-! ## The three float literals the programs spell, as reals -/

/-- The word `0x38800000` denotes 2⁻¹⁴ = 1/16384. -/
theorem ofBits_inv16384 : Ideal.ofBits .f32 0x38800000#32 = ((1 / 16384 : ℝ) : EReal) := by
  simp [Ideal.ofBits, Ideal.ieee, -EReal.coe_mul]; norm_num

/-- The word `0x46800000` denotes 16384. -/
theorem ofBits_16384 : Ideal.ofBits .f32 0x46800000#32 = ((16384 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

/-- The word of all zeros denotes 0. -/
theorem ofBits_zero : Ideal.ofBits .f32 0x00000000#32 = 0 := by
  simp [Ideal.ofBits, Ideal.ieee]

end Cert.Spec

end
-- ==== Proof.KI.Payloads.lean ====
/-
  The kernel's stored values, on the extended reals, read at an index.

  The first kernel's accumulator starts at zero; each step adds to it the sum of a block of 64 × 128 entries of
  each channel; its last step turns the row of accumulated sums into the gate: the sums times 1/16384 through the
  two affine maps, `z ↦ z · σ(z)` after the first and `σ` after the second. The second kernel spreads the gate at
  (b, c) along the lanes and multiplies every entry of channel (b, c) by it. The sum of a channel over its
  128 rows is the sum over the first 64 rows plus the sum over the last 64.
-/
import proofs.«104051_j49684181680676_2_alg».proof.Proof.Gen.KernelIdeal.Skeleton
import proofs.«104051_j49684181680676_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The accumulator's first value -/

/-- The accumulator starts at zero. -/
theorem pay1_apply (j : S8x64.Idx) : k0_pay1 (F := Ideal) j = 0 := by
  unfold k0_pay1
  rw [shapeCast_self]
  exact Ideal.ofBits_zero_f32

/-! ## One accumulation step -/

/-- Row `h` of channel (p, q) summed along its lanes. -/
theorem laneSum_apply (x0 : FVec Ideal S8x64x64x128 .f32) (p : Fin 8) (q : Fin 64) (h : Fin 64) :
    multiReduction (F := Ideal) .add [3] S8x64x64 x0 0x00000000#32 reduces_S8x64x64x128_S8x64x64 (.inl rfl) rfl (ix3 p q h)
      = ∑ w : Fin 128, x0 (ix4 p q h w) := by
  refine (Ideal.multiReduction_add_single x0 _ reduces_S8x64x64x128_S8x64x64 _ _ (ix3 p q h)).trans ?_
  refine Finset.sum_congr rfl fun w _ => congrArg x0 (funext fun a => Fin.ext ?_)
  match a with
  | ⟨0, _⟩ => rfl
  | ⟨1, _⟩ => rfl
  | ⟨2, _⟩ => rfl
  | ⟨3, _⟩ => rfl

/-- The rows' sums of channel (p, q) summed: the sum of the block's 64 × 128 entries. -/
theorem blockSum_apply (x0 : FVec Ideal S8x64x64x128 .f32) (p : Fin 8) (q : Fin 64) :
    multiReduction (F := Ideal) .add [2] S8x64
        (multiReduction (F := Ideal) .add [3] S8x64x64 x0 0x00000000#32 reduces_S8x64x64x128_S8x64x64 (.inl rfl) rfl)
        0x00000000#32 reduces_S8x64x64_S8x64 (.inl rfl) rfl (ix2 p q)
      = ∑ h : Fin 64, ∑ w : Fin 128, x0 (ix4 p q h w) := by
  refine (Ideal.multiReduction_add_single _ _ reduces_S8x64x64_S8x64 _ _ (ix2 p q)).trans ?_
  refine Finset.sum_congr rfl fun h _ => ?_
  refine Eq.trans (congrArg _ (funext fun a => Fin.ext ?_)) (laneSum_apply x0 p q h)
  match a with
  | ⟨0, _⟩ => rfl
  | ⟨1, _⟩ => rfl
  | ⟨2, _⟩ => rfl

/-- One step adds the block's sum of channel (p, q) to the accumulator there. -/
theorem pay2_apply (x0 : Vec Ideal S8x64x64x128 .f32) (v6 : Vec Ideal S8x64 .f32) (p : Fin 8) (q : Fin 64) :
    k0_pay2 x0 v6 (ix2 p q) = v6 (ix2 p q) + ∑ h : Fin 64, ∑ w : Fin 128, x0 (ix4 p q h w) := by
  unfold k0_pay2
  rw [shapeCast_self, addf_apply, blockSum_apply]

/-! ## The last step: from the accumulated sums to the gate -/

/-- The first contraction into the zero accumulator at (p, j): the sum over the 64 channels of the products. -/
theorem matmul1_apply (l : FVec Ideal S8x64 .f32) (r : FVec Ideal S64x16 .f32) (p : Fin 8) (j : Fin 16) :
    matmul dot_S8x64_S64x16_S8x16_1_0_0_1_n_n none l r (constant (F := Ideal) S8x16 .f32 0x00000000#32) (ix2 p j)
      = ∑ k : Fin 64, l (ix2 p k) * r (ix2 k j) := by
  simp only [matmul]
  rw [Ideal.matmul_constant_zero_apply, ← Equiv.sum_comp (contrEquiv1 dot_S8x64_S64x16_S8x16_1_0_0_1_n_n 64 rfl rfl).symm]
  refine Finset.sum_congr rfl fun k _ => ?_
  have hk := contrEquiv1_symm_val dot_S8x64_S64x16_S8x16_1_0_0_1_n_n 64 rfl rfl k
  have el : dot_S8x64_S64x16_S8x16_1_0_0_1_n_n.lhsIdx (ix2 p j) ((contrEquiv1 dot_S8x64_S64x16_S8x16_1_0_0_1_n_n 64 rfl rfl).symm k) = ix2 p k :=
    funext fun a => Fin.ext (by
      match a with
      | ⟨0, _⟩ =>
        show (dot_S8x64_S64x16_S8x16_1_0_0_1_n_n.lhsIdx (ix2 p j) _ 0).val = p.val
        unfold DotDims.lhsIdx
        rw [dif_neg (show ¬(0 : Fin S8x64.rank) ∈ dot_S8x64_S64x16_S8x16_1_0_0_1_n_n.lhsBatch by decide),
          dif_pos (show (0 : Fin S8x64.rank) ∈ dot_S8x64_S64x16_S8x16_1_0_0_1_n_n.lhsNonContracting by decide)]
        rfl
      | ⟨1, _⟩ => exact (dot_S8x64_S64x16_S8x16_1_0_0_1_n_n.lhsIdx_val_of_single rfl _ _).trans hk)
  have er : dot_S8x64_S64x16_S8x16_1_0_0_1_n_n.rhsIdx (ix2 p j) ((contrEquiv1 dot_S8x64_S64x16_S8x16_1_0_0_1_n_n 64 rfl rfl).symm k) = ix2 k j :=
    funext fun a => Fin.ext (by
      match a with
      | ⟨0, _⟩ => exact (dot_S8x64_S64x16_S8x16_1_0_0_1_n_n.rhsIdx_val_of_single rfl _ _).trans hk
      | ⟨1, _⟩ =>
        show (dot_S8x64_S64x16_S8x16_1_0_0_1_n_n.rhsIdx (ix2 p j) _ 1).val = j.val
        unfold DotDims.rhsIdx
        rw [dif_neg (show ¬(1 : Fin S64x16.rank) ∈ dot_S8x64_S64x16_S8x16_1_0_0_1_n_n.rhsBatch by decide),
          dif_pos (show (1 : Fin S64x16.rank) ∈ dot_S8x64_S64x16_S8x16_1_0_0_1_n_n.rhsNonContracting by decide)]
        rfl)
  rw [el, er]

/-- The second contraction into the zero accumulator at (p, q): the sum over the 16 hidden units of the products. -/
theorem matmul2_apply (l : FVec Ideal S8x16 .f32) (r : FVec Ideal S16x64 .f32) (p : Fin 8) (j : Fin 64) :
    matmul dot_S8x16_S16x64_S8x64_1_0_0_1_n_n none l r (constant (F := Ideal) S8x64 .f32 0x00000000#32) (ix2 p j)
      = ∑ k : Fin 16, l (ix2 p k) * r (ix2 k j) := by
  simp only [matmul]
  rw [Ideal.matmul_constant_zero_apply, ← Equiv.sum_comp (contrEquiv1 dot_S8x16_S16x64_S8x64_1_0_0_1_n_n 16 rfl rfl).symm]
  refine Finset.sum_congr rfl fun k _ => ?_
  have hk := contrEquiv1_symm_val dot_S8x16_S16x64_S8x64_1_0_0_1_n_n 16 rfl rfl k
  have el : dot_S8x16_S16x64_S8x64_1_0_0_1_n_n.lhsIdx (ix2 p j) ((contrEquiv1 dot_S8x16_S16x64_S8x64_1_0_0_1_n_n 16 rfl rfl).symm k) = ix2 p k :=
    funext fun a => Fin.ext (by
      match a with
      | ⟨0, _⟩ =>
        show (dot_S8x16_S16x64_S8x64_1_0_0_1_n_n.lhsIdx (ix2 p j) _ 0).val = p.val
        unfold DotDims.lhsIdx
        rw [dif_neg (show ¬(0 : Fin S8x16.rank) ∈ dot_S8x16_S16x64_S8x64_1_0_0_1_n_n.lhsBatch by decide),
          dif_pos (show (0 : Fin S8x16.rank) ∈ dot_S8x16_S16x64_S8x64_1_0_0_1_n_n.lhsNonContracting by decide)]
        rfl
      | ⟨1, _⟩ => exact (dot_S8x16_S16x64_S8x64_1_0_0_1_n_n.lhsIdx_val_of_single rfl _ _).trans hk)
  have er : dot_S8x16_S16x64_S8x64_1_0_0_1_n_n.rhsIdx (ix2 p j) ((contrEquiv1 dot_S8x16_S16x64_S8x64_1_0_0_1_n_n 16 rfl rfl).symm k) = ix2 k j :=
    funext fun a => Fin.ext (by
      match a with
      | ⟨0, _⟩ => exact (dot_S8x16_S16x64_S8x64_1_0_0_1_n_n.rhsIdx_val_of_single rfl _ _).trans hk
      | ⟨1, _⟩ =>
        show (dot_S8x16_S16x64_S8x64_1_0_0_1_n_n.rhsIdx (ix2 p j) _ 1).val = j.val
        unfold DotDims.rhsIdx
        rw [dif_neg (show ¬(1 : Fin S16x64.rank) ∈ dot_S8x16_S16x64_S8x64_1_0_0_1_n_n.rhsBatch by decide),
          dif_pos (show (1 : Fin S16x64.rank) ∈ dot_S8x16_S16x64_S8x64_1_0_0_1_n_n.rhsNonContracting by decide)]
        rfl)
  rw [el, er]

/-- The first affine map of row `p` of the accumulated sums times 1/16384, at hidden unit `j`. -/
theorem pre1_apply (a : FVec Ideal S8x64 .f32) (w1 : FVec Ideal S16x64 .f32) (b1 : FVec Ideal S1x16 .f32) (p : Fin 8)
    (j : Fin 16) :
    addf (matmul dot_S8x64_S64x16_S8x16_1_0_0_1_n_n none (mulf a (broadcast S8x64 (Scalar.ofBits (F := Ideal) .f32 0x38800000#32)))
          (transpose S64x16 [1, 0] w1 transposes_S16x64_p1_0_S64x16) (constant (F := Ideal) S8x16 .f32 0x00000000#32))
        (broadcastTo S8x16 (shapeCast S1x16 b1 shapeCasts_S1x16_S1x16) broadcasts_S1x16_S8x16) (ix2 p j)
      = Cert.Spec.pre1 (fun c => a (ix2 p c) * ((1 / 16384 : ℝ) : EReal)) w1
          (fun i => b1 (ix2 (0 : Fin 1) ⟨(i 0).val, (i 0).isLt⟩)) j := by
  rw [addf_apply, matmul1_apply, shapeCast_self, broadcastTo_1b_ab_apply]
  unfold Cert.Spec.pre1
  refine congrArg₂ (· + ·) (Finset.sum_congr rfl fun k _ => ?_) rfl
  rw [mulf_apply, broadcast_apply, transpose_ix2_apply]
  exact congrArg (a (ix2 p k) * · * w1 (ix2 j k)) Cert.Spec.ofBits_inv16384

/-- The last step at (p, q): the gate of the row of accumulated sums times 1/16384. -/
theorem pay3_apply (a : Vec Ideal S8x64 .f32) (w1 : Vec Ideal S16x64 .f32) (b1 : Vec Ideal S1x16 .f32)
    (w2 : Vec Ideal S64x16 .f32) (b2 : Vec Ideal S1x64 .f32) (p : Fin 8) (q : Fin 64) :
    k0_pay3 a w1 b1 w2 b2 (ix2 p q)
      = Cert.Spec.gate (fun c => a (ix2 p c) * ((1 / 16384 : ℝ) : EReal)) w1
          (fun j => b1 (ix2 (0 : Fin 1) ⟨(j 0).val, (j 0).isLt⟩)) w2
          (fun j => b2 (ix2 (0 : Fin 1) ⟨(j 0).val, (j 0).isLt⟩)) q := by
  unfold k0_pay3
  show FloatOps.logistic (addf _ _ (ix2 p q)) = _
  rw [addf_apply, matmul2_apply, shapeCast_self b2, broadcastTo_1b_ab_apply, Ideal.logistic_def]
  unfold Cert.Spec.gate
  refine congrArg Ideal.logistic (congrArg₂ (· + ·) (Finset.sum_congr rfl fun k _ => ?_) rfl)
  rw [transpose_ix2_apply, mulf_apply]
  show _ * FloatOps.logistic _ * _ = _
  rw [Ideal.logistic_def, pre1_apply]
  rfl

/-! ## The second kernel: the gate along the lanes, and the product -/

/-- The gate at (p, q) read at every lane of row 0. -/
theorem pay1s_apply (g : Vec Ideal S8x64 .f32) (p : Fin 8) (q : Fin 64) (w : Fin 128) :
    k1_pay1 g (ix4 p q (0 : Fin 1) w) = g (ix2 p q) := by
  unfold k1_pay1
  rw [shapeCast_self, shapeCast_self, shapeCast_self]
  refine (broadcastTo_apply _ broadcasts_S8x64x1x1_S8x64x1x128 (ix4 p q (0 : Fin 1) w)
    (ix4 p q (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply g shapeCasts_S8x64_S8x64x1x1 _ (ix2 p q) ?_
    rw [Shape.rowMajor_val_two, Shape.rowMajor_val_four]
    show p.val * 64 + q.val = ((p.val * 64 + q.val) * 1 + 0) * 1 + 0
    omega

/-- Every entry of channel (p, q) times the value spread along its lane. -/
theorem pay2s_apply (x : Vec Ideal S8x64x16x128 .f32) (s : Vec Ideal S8x64x1x128 .f32) (p : Fin 8) (q : Fin 64)
    (h : Fin 16) (w : Fin 128) :
    k1_pay2 x s (ix4 p q h w) = x (ix4 p q h w) * s (ix4 p q (0 : Fin 1) w) := by
  unfold k1_pay2
  rw [mulf_apply]
  refine congrArg (x (ix4 p q h w) * ·) ?_
  refine broadcastTo_apply s broadcasts_S8x64x1x128_S8x64x16x128 (ix4 p q h w) (ix4 p q (0 : Fin 1) w) fun a => ?_
  match a with
  | ⟨0, _⟩ => rfl
  | ⟨1, _⟩ => rfl
  | ⟨2, _⟩ => rfl
  | ⟨3, _⟩ => rfl

/-! ## A channel's sum, split at row 64 -/

/-- The sum over 128 rows is the sum over rows 0 … 63 plus the sum over rows 64 … 127. -/
theorem pool_split (x : (⟨4, ![32, 64, 128, 128]⟩ : Shape).Idx → EReal) (b : Fin 32) (c : Fin 64) :
    Cert.Spec.pool x b c
      = (∑ h : Fin 64, ∑ w : Fin 128, x (ix4 b c (⟨h.val, by omega⟩ : Fin 128) w))
        + (∑ h : Fin 64, ∑ w : Fin 128, x (ix4 b c (⟨64 + h.val, by omega⟩ : Fin 128) w)) := by
  unfold Cert.Spec.pool
  exact Fin.sum_univ_add (a := 64) (b := 64) fun h : Fin (64 + 64) => ∑ w : Fin 128, x (ix4 b c h w)

end Cert.KernelIdeal.PayVal

end
-- ==== Proof.KI.Value0.lean ====
/-
  Region 0's result at the extended reals: the pooled-gate array [32, 64].

  Point `t` of the 4 × 2 grid reads rows `8·(t/2) … 8·(t/2)+7` of the batch axis and rows `64·(t%2) … 64·(t%2)+63` of
  the first spatial axis. After an odd point the accumulator holds, for batch row `8·(t/2)+p` and channel `c`, the sum
  over the first 64 spatial rows plus the sum over the last 64 — the whole spatial sum —, and the block written back
  there is the gate of the means. The four odd points' blocks tile the array.
-/
import proofs.«104051_j49684181680676_2_alg».proof.Proof.KI.Region0
import proofs.«104051_j49684181680676_2_alg».proof.Proof.KI.Payloads
import proofs.«104051_j49684181680676_2_alg».proof.Proof.Spec
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayVal

variable (V : (c : Dev nD) → (b : Ref sig .tc) → Buf (Elt Ideal) ((c : Thread nD τ).loc b))

/-! ## The index maps over the grid -/

theorem idx_facts0 : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-! ## The blocks read at an index -/

/-- The x block at point `t`: batch rows from `8·(t/2)`, spatial rows from `64·(t%2)`. -/
theorem iblk0_0_apply (c : Dev nD) (t : Fin cfg0.N) (p : Fin 8) (q : Fin 64) (h : Fin 64) (w : Fin 128) :
    iblk0 V c 0 t (ix4 p q h w)
      = V c main_arg0 (ix4 (⟨8 * (t.val / 2) + p.val, by have := t.isLt; have : cfg0.N = 8 := N_0; omega⟩ : Fin 32) q (⟨64 * (t.val % 2) + h.val, by omega⟩ : Fin 128) w) := by
  obtain ⟨e0, e1, e2, e3, -⟩ := idx_facts0 t
  show V c main_arg0 (((cfg0.win 0).blk t).view.emb (ix4 p q h w)) = _
  congr 1
  funext a; apply Fin.ext
  match a with
  | ⟨0, _⟩ => show win0_0.index t (0 : Fin 4) * 8 + 1 * p.val = 8 * (t.val / 2) + p.val; omega
  | ⟨1, _⟩ => show win0_0.index t (1 : Fin 4) * 64 + 1 * q.val = q.val; omega
  | ⟨2, _⟩ => show win0_0.index t (2 : Fin 4) * 64 + 1 * h.val = 64 * (t.val % 2) + h.val; omega
  | ⟨3, _⟩ => show win0_0.index t (3 : Fin 4) * 128 + 1 * w.val = w.val; omega

/-- The four whole-array windows: the block is the array. -/
theorem iblk0_1_eq (c : Dev nD) (t : Fin cfg0.N) : iblk0 V c 1 t = V c main_arg1 := by
  obtain ⟨-, -, -, -, e0, e1, -⟩ := idx_facts0 t
  funext y
  show V c main_arg1 (((cfg0.win 1).blk t).view.emb y) = _
  congr 1
  funext a; apply Fin.ext
  match a with
  | ⟨0, _⟩ => show win0_1.index t (0 : Fin 2) * 16 + 1 * (y 0).val = (y 0).val; omega
  | ⟨1, _⟩ => show win0_1.index t (1 : Fin 2) * 64 + 1 * (y 1).val = (y 1).val; omega
theorem iblk0_2_eq (c : Dev nD) (t : Fin cfg0.N) : iblk0 V c 2 t = V c main_v0 := by
  obtain ⟨-, -, -, -, -, -, e0, e1, -⟩ := idx_facts0 t
  funext y
  show V c main_v0 (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 16 + 1 * (y 1).val = (y 1).val; omega
theorem iblk0_3_eq (c : Dev nD) (t : Fin cfg0.N) : iblk0 V c 3 t = V c main_arg3 := by
  obtain ⟨-, -, -, -, -, -, -, -, e0, e1, -⟩ := idx_facts0 t
  funext y
  show V c main_arg3 (((cfg0.win 3).blk t).view.emb y) = _
  congr 1
  funext a; apply Fin.ext
  match a with
  | ⟨0, _⟩ => show win0_3.index t (0 : Fin 2) * 64 + 1 * (y 0).val = (y 0).val; omega
  | ⟨1, _⟩ => show win0_3.index t (1 : Fin 2) * 16 + 1 * (y 1).val = (y 1).val; omega
theorem iblk0_4_eq (c : Dev nD) (t : Fin cfg0.N) : iblk0 V c 4 t = V c main_v1 := by
  obtain ⟨-, -, -, -, -, -, -, -, -, -, e0, e1, -⟩ := idx_facts0 t
  funext y
  show V c main_v1 (((cfg0.win 4).blk t).view.emb y) = _
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-! ## The accumulator after an odd point is the whole spatial sum -/

theorem acc_odd_apply (c : Dev nD) (t : Fin cfg0.N) (h0 : ¬t.val % 2 = 0) (p : Fin 8) (q : Fin 64) :
    acc V c t (ix2 p q) = Cert.Spec.pool (V c main_arg0) (⟨8 * (t.val / 2) + p.val, by have := t.isLt; have : cfg0.N = 8 := N_0; omega⟩ : Fin 32) q := by
  have hN : cfg0.N = 8 := N_0
  have ht := t.isLt
  have hp : (prev t).val = t.val - 1 := rfl
  rw [acc_odd V c t h0, pay2_apply, acc_even V c (prev t) (by rw [hp]; omega), pay2_apply, pay1_apply, zero_add, pool_split]
  congr 1
  · refine Finset.sum_congr rfl fun h _ => Finset.sum_congr rfl fun w _ => ?_
    rw [iblk0_0_apply]
    congr 1
    funext a; apply Fin.ext
    match a with
    | ⟨0, _⟩ => show 8 * ((prev t).val / 2) + p.val = 8 * (t.val / 2) + p.val; rw [hp]; omega
    | ⟨1, _⟩ => rfl
    | ⟨2, _⟩ => show 64 * ((prev t).val % 2) + h.val = h.val; rw [hp]; omega
    | ⟨3, _⟩ => rfl
  · refine Finset.sum_congr rfl fun h _ => Finset.sum_congr rfl fun w _ => ?_
    rw [iblk0_0_apply]
    congr 1
    funext a; apply Fin.ext
    match a with
    | ⟨0, _⟩ => rfl
    | ⟨1, _⟩ => rfl
    | ⟨2, _⟩ => show 64 * (t.val % 2) + h.val = 64 + h.val; omega
    | ⟨3, _⟩ => rfl

/-! ## The gate array -/

/-- The gate array [32, 64] of the arguments as the region finds them: the bias vectors through their [1, n] reshapes. -/
def G0 (c : Dev nD) : S32x64.Idx → EReal := fun j =>
  Cert.Spec.gate (fun c' => Cert.Spec.mean (V c main_arg0) ⟨(j 0).val, (j 0).isLt⟩ c') (V c main_arg1)
    (fun k => V c main_v0 (ix2 (0 : Fin 1) ⟨(k 0).val, (k 0).isLt⟩)) (V c main_arg3)
    (fun k => V c main_v1 (ix2 (0 : Fin 1) ⟨(k 0).val, (k 0).isLt⟩)) ⟨(j 1).val, (j 1).isLt⟩

/-- What an odd point writes back is its block of the gate array. -/
theorem flushed0_eq (c : Dev nD) (t : Fin cfg0.N) (hf : (cfg0.win 5).flush t = true) :
    (dat0 V c).flushed 5 t = ((cfg0.win 5).blk t).view.read (Elt Ideal) (G0 V c) := by
  have hN : cfg0.N = 8 := N_0
  have ht := t.isLt
  have h1 : t.val % 2 = 1 := (flush0_5 t).mp hf
  have h0 : ¬t.val % 2 = 0 := by omega
  obtain ⟨-, -, -, -, -, -, -, -, -, -, -, -, e0, e1⟩ := idx_facts0 t
  show (cfg0.win 5).cut (grid0.coords t) ((dat0 V c).after 5 t) = _
  rw [after0_5]
  funext y
  obtain ⟨p, q, rfl⟩ : ∃ (p : Fin 8) (q : Fin 64), y = ix2 p q := ⟨y 0, y 1, eq_ix2 y⟩
  show gateBlk V c t (ix2 p q) = G0 V c (((cfg0.win 5).blk t).view.emb (ix2 p q))
  have hemb : ((cfg0.win 5).blk t).view.emb (ix2 p q) = ix2 (⟨8 * (t.val / 2) + p.val, by omega⟩ : Fin 32) q := by
    funext a; apply Fin.ext
    match a with
    | ⟨0, _⟩ => show win0_5.index t (0 : Fin 2) * 8 + 1 * p.val = 8 * (t.val / 2) + p.val; omega
    | ⟨1, _⟩ => show win0_5.index t (1 : Fin 2) * 64 + 1 * q.val = q.val; omega
  rw [hemb]
  unfold gateBlk G0
  rw [pay3_apply, iblk0_1_eq, iblk0_2_eq, iblk0_3_eq, iblk0_4_eq]
  congr 1
  funext c'
  rw [acc_odd_apply V c t h0]
  rfl

theorem mem_blk0 (t : Fin cfg0.N) (i : S32x64.Idx) :
    i ∈ ((cfg0.win 5).blk t).view.set ↔ ∀ a : Fin 2, win0_5.index t a * S8x64.size a ≤ (i a).val ∧ (i a).val < win0_5.index t a * S8x64.size a + S8x64.size a := by
  show i ∈ ((View.whole main_v2).slice (win0_5.rect t)).set ↔ _
  rw [View.set_slice_whole, Rect.mem_set_unit]
  exact Iff.rfl

/-- The pooling call leaves the gate array in its result. -/
theorem final0 (c : Dev nD) : (dat0 V c).arrAt 5 cfg0.N = G0 V c :=
  (dat0 V c).arrAt_eq_of_cover 5 (G0 V c) (fun t hf => flushed0_eq V c t hf) fun i => by
    have hN : cfg0.N = 8 := N_0
    have hi0 : (i 0).val < 32 := (i 0).isLt
    have hi1 : (i 1).val < 64 := (i 1).isLt
    let t : Fin cfg0.N := ⟨2 * ((i 0).val / 8) + 1, by omega⟩
    obtain ⟨-, -, -, -, -, -, -, -, -, -, -, -, e0, e1⟩ := idx_facts0 t
    have htv : t.val = 2 * ((i 0).val / 8) + 1 := rfl
    refine ⟨t, (flush0_5 t).mpr (by rw [htv]; omega), ?_⟩
    rw [mem_blk0]
    intro a
    match a with
    | ⟨0, _⟩ => show win0_5.index t (0 : Fin 2) * 8 ≤ (i 0).val ∧ (i 0).val < win0_5.index t (0 : Fin 2) * 8 + 8; rw [e0, htv]; omega
    | ⟨1, _⟩ => show win0_5.index t (1 : Fin 2) * 64 ≤ (i 1).val ∧ (i 1).val < win0_5.index t (1 : Fin 2) * 64 + 64; rw [e1]; omega

end Cert.KernelIdeal.R0

end
-- ==== Proof.KI.Region1Row.lean ====
import proofs.«104051_j49684181680676_2_alg».proof.Proof.KI.Region1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Regions
variable (V : (c : Dev nD) → (b : Ref sig .tc) → Buf (Elt F) ((c : Thread nD τ).loc b))

/-- The gate window's block index is the same at a point and at the first point of its row. -/
theorem index1_rowStart : ∀ t : Fin cfg1.N, (cfg1.win 1).index (rowStart t) = (cfg1.win 1).index t :=
  (by decide +kernel : ∀ t : Fin grid1.N, win1_1.index (rowStart t) = win1_1.index t)

/-- So the gate block read at the row's first point is the gate block at the point itself. -/
theorem iblk1_rowStart (c : Dev nD) (t : Fin cfg1.N) :
    (iblk1 V c 1 (rowStart t) : Vec F S8x64 .f32) = (iblk1 V c 1 t : Vec F S8x64 .f32) := by
  unfold iblk1
  funext y
  rw [View.read_apply, View.read_apply]
  have h : ((cfg1.win 1).blk (rowStart t)).view.emb y = ((cfg1.win 1).blk t).view.emb y := by
    show (cfg1.win 1).arr.view.emb (((cfg1.win 1).rect (rowStart t)).emb y) = (cfg1.win 1).arr.view.emb (((cfg1.win 1).rect t).emb y)
    congr 1
    funext a
    apply Fin.ext
    rw [Rect.emb_apply, Rect.emb_apply]
    show (cfg1.win 1).index (rowStart t) a * (cfg1.win 1).size a + 1 * (y a).val = (cfg1.win 1).index t a * (cfg1.win 1).size a + 1 * (y a).val
    rw [index1_rowStart t]
  rw [h]

/-- What the scratch holds after point `t`, from the gate block at `t` itself. -/
theorem scr_eq (c : Dev nD) (t : Fin cfg1.N) : scr V c t = k1_pay1 (iblk1 V c 1 t : Vec F S8x64 .f32) := by
  unfold scr; exact congrArg k1_pay1 (iblk1_rowStart V c t)

end Regions

end Cert.KernelIdeal.R1

end
-- ==== Proof.KI.Value1.lean ====
import proofs.«104051_j49684181680676_2_alg».proof.Proof.KI.Region1
import proofs.«104051_j49684181680676_2_alg».proof.Proof.KI.Region1Row
import proofs.«104051_j49684181680676_2_alg».proof.Proof.KI.Payloads
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.PayVal

/-! ## The scaled array: every entry times the gate of its channel -/

/-- Entry (b, c, h, w) of the first array times entry (b, c) of the second. -/
def G1 (X : S32x64x128x128.Idx → EReal) (Gt : S32x64.Idx → EReal) : S32x64x128x128.Idx → EReal :=
  fun i => X i * Gt (ix2 (⟨(i 0).val, (i 0).isLt⟩ : Fin 32) (⟨(i 1).val, (i 1).isLt⟩ : Fin 64))

/-- What the second kernel stores, at an index: the entry times the gate of its channel. -/
theorem pay_at (x : Vec Ideal S8x64x16x128 .f32) (g : Vec Ideal S8x64 .f32) (p : Fin 8) (q : Fin 64) (h : Fin 16) (w : Fin 128) :
    k1_pay2 x (k1_pay1 g) (ix4 p q h w) = x (ix4 p q h w) * g (ix2 p q) := by
  rw [pay2s_apply, pay1s_apply]

/-- The printed index maps, decided over the grid: point `t` is row `t / 8` of four, step `t % 8` of eight. -/
theorem idx_facts1 : ∀ t : Fin cfg1.N,
    win1_0.index t (0 : Fin 4) = t.val / 8 ∧ win1_0.index t (1 : Fin 4) = 0 ∧ win1_0.index t (2 : Fin 4) = t.val % 8 ∧ win1_0.index t (3 : Fin 4) = 0
    ∧ win1_1.index t (0 : Fin 2) = t.val / 8 ∧ win1_1.index t (1 : Fin 2) = 0
    ∧ win1_2.index t (0 : Fin 4) = t.val / 8 ∧ win1_2.index t (1 : Fin 4) = 0 ∧ win1_2.index t (2 : Fin 4) = t.val % 8 ∧ win1_2.index t (3 : Fin 4) = 0 :=
  (by decide +kernel : ∀ t : Fin grid1.N, _)

section Regions
variable (V : (c : Dev nD) → (b : Ref sig .tc) → Buf (Elt Ideal) ((c : Thread nD τ).loc b))

/-- What point `t` writes back is block `t` of the scaled array of the arrays as the region finds them. -/
theorem flushed1_eq (c : Dev nD) (t : Fin cfg1.N) :
    (dat1 (F := Ideal) V c).flushed 2 t = ((cfg1.win 2).blk t).view.read (Elt Ideal) (G1 (V c main_arg0) (V c main_v2)) := by
  show (cfg1.win 2).cut (grid1.coords t) ((dat1 V c).after 2 t) = _
  rw [after1_2, scr_eq]
  obtain ⟨e0, e1, e2, e3, e4, e5, e6, e7, e8, e9⟩ := idx_facts1 t
  funext y
  obtain ⟨p, q, h, w, rfl⟩ : ∃ (p : Fin 8) (q : Fin 64) (h : Fin 16) (w : Fin 128), y = ix4 p q h w := ⟨y 0, y 1, y 2, y 3, eq_ix4 y⟩
  show k1_pay2 (iblk1 V c 0 t : Vec Ideal S8x64x16x128 .f32) (k1_pay1 (iblk1 V c 1 t : Vec Ideal S8x64 .f32)) (ix4 p q h w) = _
  refine (pay_at (iblk1 V c 0 t) (iblk1 V c 1 t) p q h w).trans ?_
  have h0 : (((cfg1.win 0).blk t).view.emb (ix4 p q h w) : S32x64x128x128.Idx) = (((cfg1.win 2).blk t).view.emb (ix4 p q h w) : S32x64x128x128.Idx) := by
    funext a; apply Fin.ext
    match a with
    | ⟨0, _⟩ => show win1_0.index t (0 : Fin 4) * 8 + 1 * p.val = win1_2.index t (0 : Fin 4) * 8 + 1 * p.val; omega
    | ⟨1, _⟩ => show win1_0.index t (1 : Fin 4) * 64 + 1 * q.val = win1_2.index t (1 : Fin 4) * 64 + 1 * q.val; omega
    | ⟨2, _⟩ => show win1_0.index t (2 : Fin 4) * 16 + 1 * h.val = win1_2.index t (2 : Fin 4) * 16 + 1 * h.val; omega
    | ⟨3, _⟩ => show win1_0.index t (3 : Fin 4) * 128 + 1 * w.val = win1_2.index t (3 : Fin 4) * 128 + 1 * w.val; omega
  have h1 : (((cfg1.win 1).blk t).view.emb (ix2 p q) : S32x64.Idx)
      = ix2 (⟨((((cfg1.win 2).blk t).view.emb (ix4 p q h w) : S32x64x128x128.Idx) 0).val, ((((cfg1.win 2).blk t).view.emb (ix4 p q h w) : S32x64x128x128.Idx) 0).isLt⟩ : Fin 32)
          (⟨((((cfg1.win 2).blk t).view.emb (ix4 p q h w) : S32x64x128x128.Idx) 1).val, ((((cfg1.win 2).blk t).view.emb (ix4 p q h w) : S32x64x128x128.Idx) 1).isLt⟩ : Fin 64) := by
    funext a; apply Fin.ext
    match a with
    | ⟨0, _⟩ => show win1_1.index t (0 : Fin 2) * 8 + 1 * p.val = win1_2.index t (0 : Fin 4) * 8 + 1 * p.val; omega
    | ⟨1, _⟩ => show win1_1.index t (1 : Fin 2) * 64 + 1 * q.val = win1_2.index t (1 : Fin 4) * 64 + 1 * q.val; omega
  show @HMul.hMul EReal EReal EReal instHMul (V c main_arg0 (((cfg1.win 0).blk t).view.emb (ix4 p q h w)))
      (V c main_v2 (((cfg1.win 1).blk t).view.emb (ix2 p q)))
    = G1 (V c main_arg0) (V c main_v2) (((cfg1.win 2).blk t).view.emb (ix4 p q h w))
  rw [h0, h1]
  rfl

/-- An index of the array is in point `t`'s block iff each coordinate is in the block's range on its axis. -/
theorem mem_blk1 (t : Fin cfg1.N) (i : S32x64x128x128.Idx) :
    i ∈ ((cfg1.win 2).blk t).view.set ↔ ∀ a : Fin 4, win1_2.index t a * S8x64x16x128.size a ≤ (i a).val ∧ (i a).val < win1_2.index t a * S8x64x16x128.size a + S8x64x16x128.size a := by
  show i ∈ ((View.whole main_v3).slice (win1_2.rect t)).set ↔ _
  rw [View.set_slice_whole, Rect.mem_set_unit]
  exact Iff.rfl

/-- Every index of the array is in the block of the point at its row of eight images and its step of sixteen rows. -/
theorem cover1 (i : S32x64x128x128.Idx) : ∃ t : Fin cfg1.N, (cfg1.win 2).flush t = true ∧ i ∈ ((cfg1.win 2).blk t).view.set := by
  have hi0 : (i 0).val < 32 := (i 0).isLt
  have hi1 : (i 1).val < 64 := (i 1).isLt
  have hi2 : (i 2).val < 128 := (i 2).isLt
  have hi3 : (i 3).val < 128 := (i 3).isLt
  have hN : cfg1.N = 32 := N_1
  have ht : 8 * ((i 0).val / 8) + (i 2).val / 16 < cfg1.N := by omega
  obtain ⟨e0, e1, e2, e3, e4, e5, e6, e7, e8, e9⟩ := idx_facts1 ⟨8 * ((i 0).val / 8) + (i 2).val / 16, ht⟩
  refine ⟨⟨8 * ((i 0).val / 8) + (i 2).val / 16, ht⟩, flush1_2 _, ?_⟩
  rw [mem_blk1]
  have v : (⟨8 * ((i 0).val / 8) + (i 2).val / 16, ht⟩ : Fin cfg1.N).val = 8 * ((i 0).val / 8) + (i 2).val / 16 := rfl
  rw [v] at e6 e8
  intro a
  match a with
  | ⟨0, _⟩ => show win1_2.index _ (0 : Fin 4) * 8 ≤ (i 0).val ∧ (i 0).val < win1_2.index _ (0 : Fin 4) * 8 + 8; omega
  | ⟨1, _⟩ => show win1_2.index _ (1 : Fin 4) * 64 ≤ (i 1).val ∧ (i 1).val < win1_2.index _ (1 : Fin 4) * 64 + 64; omega
  | ⟨2, _⟩ => show win1_2.index _ (2 : Fin 4) * 16 ≤ (i 2).val ∧ (i 2).val < win1_2.index _ (2 : Fin 4) * 16 + 16; omega
  | ⟨3, _⟩ => show win1_2.index _ (3 : Fin 4) * 128 ≤ (i 3).val ∧ (i 3).val < win1_2.index _ (3 : Fin 4) * 128 + 128; omega

/-- The output array after the region: the scaled array of the arrays the region is entered with. -/
theorem final1 (c : Dev nD) (X : S32x64x128x128.Idx → EReal) (Gt : S32x64.Idx → EReal) (hx : V c main_arg0 = X) (hg : V c main_v2 = Gt) :
    (dat1 (F := Ideal) V c).arrAt 2 cfg1.N = G1 X Gt := by
  subst hx hg
  exact (dat1 V c).arrAt_eq_of_cover 2 (G1 (V c main_arg0) (V c main_v2)) (fun t _ => flushed1_eq V c t) cover1

end Regions

end Cert.KernelIdeal.R1

end
-- ==== Proof.KI.HostVals.lean ====
/-
  The two bias rows as the first call finds them.

  Before the first call the two bias vectors, of 16 and of 64 entries, are reshaped to one-row matrices: entry
  (0, k) of each row is entry k of the vector.
-/
import proofs.«104051_j49684181680676_2_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.ValueIdx Idealize.ShloMosaic.StableHlo

variable {F : FTy → Type} [FloatOps F]

/-- After the two reshapes the first row holds the 16-entry vector. -/
theorem after_main_v0_apply (W : Valuation τ sig (Elt F)) (k : Fin 16) :
    (StableHlo.after (hostOps0 (F := F)) W (Proc.devRef .tc main_v0) : S1x16.Idx → Elt F .f32) (ix2 (0 : Fin 1) k)
      = (W (Proc.devRef .tc main_arg2) : S16.Idx → Elt F .f32) (ix1 k) := by
  have e : (StableHlo.after (hostOps0 (F := F)) W (Proc.devRef .tc main_v0) : S1x16.Idx → Elt F .f32)
      = shapeCast S1x16 (W (Proc.devRef .tc main_arg2) : S16.Idx → Elt F .f32) shapeCasts_S16_S1x16 := by
    after_results
    rfl
  rw [e]
  exact shapeCast_a_1a_apply _ _ (0 : Fin 1) k

/-- After the two reshapes the second row holds the 64-entry vector. -/
theorem after_main_v1_apply (W : Valuation τ sig (Elt F)) (k : Fin 64) :
    (StableHlo.after (hostOps0 (F := F)) W (Proc.devRef .tc main_v1) : S1x64.Idx → Elt F .f32) (ix2 (0 : Fin 1) k)
      = (W (Proc.devRef .tc main_arg4) : S64.Idx → Elt F .f32) (ix1 k) := by
  have e : (StableHlo.after (hostOps0 (F := F)) W (Proc.devRef .tc main_v1) : S1x64.Idx → Elt F .f32)
      = shapeCast S1x64 (W (Proc.devRef .tc main_arg4) : S64.Idx → Elt F .f32) shapeCasts_S64_S1x64 := by
    after_results
    rfl
  rw [e]
  exact shapeCast_a_1a_apply _ _ (0 : Fin 1) k

end Cert.KernelIdeal.Hand

end
-- ==== Proof.KI.Final.lean ====
/-
  The idealized kernel's run, read: the result array ends at the specification's function of the argument arrays.

  The scaling call leaves `x · g` with `g` the pooling call's result read per (batch, channel); the pooling call leaves
  the gate array of the arrays it was entered from, which are the arguments themselves and the two bias vectors
  reshaped to one row; a reshaped bias read at (0, k) is the bias at k.
-/
import proofs.«104051_j49684181680676_2_alg».proof.Proof.KI.Frame
import proofs.«104051_j49684181680676_2_alg».proof.Proof.KI.Value0
import proofs.«104051_j49684181680676_2_alg».proof.Proof.KI.Value1
import proofs.«104051_j49684181680676_2_alg».proof.Proof.KI.HostVals
import proofs.«104051_j49684181680676_2_alg».proof.Proof.Spec

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.R0 Cert.KernelIdeal.R1

variable (m : (ℓ : Loc nD τ sig) → Buf (Elt Ideal) ℓ) (ρ : Dev nD → PrngReg)

/-! ## The arguments as each call finds them -/

theorem Ve1_main_arg0 (c : Dev nD) : Ve1 m ρ c main_arg0 = m ((c : Thread nD τ).loc main_arg0) := W1_of m ρ c main_arg0 (by decide)
theorem Ve1_main_arg1 (c : Dev nD) : Ve1 m ρ c main_arg1 = m ((c : Thread nD τ).loc main_arg1) := W1_of m ρ c main_arg1 (by decide)
theorem Ve1_main_arg3 (c : Dev nD) : Ve1 m ρ c main_arg3 = m ((c : Thread nD τ).loc main_arg3) := W1_of m ρ c main_arg3 (by decide)
theorem Ve2_main_arg0 (c : Dev nD) : Ve2 m ρ c main_arg0 = m ((c : Thread nD τ).loc main_arg0) :=
  (W2_arr m ρ c 0).trans ((((dat0 (Ve1 m ρ) c).arrAt_in 0 rfl _).trans (A_eq0 (Ve1 m ρ) c 0)).trans (Ve1_main_arg0 m ρ c))
/-- The scaling call finds the gate array in the pooling call's result. -/
theorem Ve2_main_v2 (c : Dev nD) : Ve2 m ρ c main_v2 = G0 (Ve1 m ρ) c :=
  (W2_arr m ρ c 5).trans (final0 (Ve1 m ρ) c)

/-- The gate array the pooling call leaves is the specification's gate of the arguments. -/
theorem G0_eq (c : Dev nD) (b : Fin 32) (q : Fin 64) :
    G0 (Ve1 m ρ) c (ix2 b q) = Cert.Spec.gateAt (m ((c : Thread nD τ).loc main_arg0)) (m ((c : Thread nD τ).loc main_arg1))
      (m ((c : Thread nD τ).loc main_arg2)) (m ((c : Thread nD τ).loc main_arg3)) (m ((c : Thread nD τ).loc main_arg4)) b q := by
  unfold G0 Cert.Spec.gateAt
  rw [Ve1_main_arg0, Ve1_main_arg1, Ve1_main_arg3]
  have hb1 : (fun k : S16.Idx => Ve1 m ρ c main_v0 (ix2 (0 : Fin 1) ⟨(k 0).val, (k 0).isLt⟩)) = m ((c : Thread nD τ).loc main_arg2) := by
    funext k
    rw [show Ve1 m ρ c main_v0 = StableHlo.after hostOps0 (W0 m ρ c) (Proc.devRef .tc main_v0) from rfl, after_main_v0_apply]
    exact congrArg _ (eq_ix1 k).symm
  have hb2 : (fun k : S64.Idx => Ve1 m ρ c main_v1 (ix2 (0 : Fin 1) ⟨(k 0).val, (k 0).isLt⟩)) = m ((c : Thread nD τ).loc main_arg4) := by
    funext k
    rw [show Ve1 m ρ c main_v1 = StableHlo.after hostOps0 (W0 m ρ c) (Proc.devRef .tc main_v1) from rfl, after_main_v1_apply]
    exact congrArg _ (eq_ix1 k).symm
  rw [hb1, hb2]

/-- The result array after the run. -/
theorem result_eq (c : Dev nD) :
    (dat1 (Ve2 m ρ) c).arrAt 2 cfg1.N = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  rw [final1 (Ve2 m ρ) c _ _ (Ve2_main_arg0 m ρ c) (Ve2_main_v2 m ρ c)]
  funext i
  unfold Cert.Spec.G G1
  rw [G0_eq]

/-- THE RUN, read: the result array at the specification's function of the arguments, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(h c).1.trans (result_eq m ρ c), (h c).2⟩) (run (F := Ideal) m ρ)

end Cert.KernelIdeal.Hand

end
-- ==== Proof.RefSum.lean ====
/-
  The sum of a rank-4 array over its last two axes, read at an index.

  The host's sum over axes 2 and 3 of an array of shape [32, 64, 128, 128] adds, at the result index (b, c),
  the elements whose index keeps (b, c) on the first two axes: those indices are exactly (b, c, h, w) for
  h, w in 128 × 128, so the sum is the double sum over h and w.
-/
import proofs.«104051_j49684181680676_2_alg».proof.Proof.Gen.ReferenceIdeal.Read
import proofs.«104051_j49684181680676_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- Dropping axes 2 and 3 of (b, c, h, w) leaves (b, c). -/
theorem drop_ix4 (b : Fin 32) (c : Fin 64) (h : Fin 128) (w : Fin 128) :
    reducesTo_S32x64x128x128_S32x64_d2_3.drop (ix4 b c h w) = ix2 b c := by
  funext a
  refine Fin.ext ?_
  match a with
  | ⟨0, _⟩ => exact Shape.ReducesTo.drop_apply_val_of_eq reducesTo_S32x64x128x128_S32x64_d2_3 (ix4 b c h w) 0 0
  | ⟨1, _⟩ => exact Shape.ReducesTo.drop_apply_val_of_eq reducesTo_S32x64x128x128_S32x64_d2_3 (ix4 b c h w) 1 1

/-- An index that drops to (b, c) is (b, c, h, w) with its own last two coordinates. -/
theorem eq_ix4_of_drop (b : Fin 32) (c : Fin 64) (i : S32x64x128x128.Idx)
    (hi : reducesTo_S32x64x128x128_S32x64_d2_3.drop i = ix2 b c) :
    ix4 b c (⟨(i 2).val, (i 2).isLt⟩ : Fin 128) (⟨(i 3).val, (i 3).isLt⟩ : Fin 128) = i := by
  have h0 : (i 0).val = b.val :=
    (Shape.ReducesTo.drop_apply_val_of_eq reducesTo_S32x64x128x128_S32x64_d2_3 i 0 0).symm.trans
      (congrArg (fun j : S32x64.Idx => (j 0).val) hi)
  have h1 : (i 1).val = c.val :=
    (Shape.ReducesTo.drop_apply_val_of_eq reducesTo_S32x64x128x128_S32x64_d2_3 i 1 1).symm.trans
      (congrArg (fun j : S32x64.Idx => (j 1).val) hi)
  funext a
  refine Fin.ext ?_
  match a with
  | ⟨0, _⟩ => exact h0.symm
  | ⟨1, _⟩ => exact h1.symm
  | ⟨2, _⟩ => rfl
  | ⟨3, _⟩ => rfl

/-- The sum over axes 2 and 3 at (b, c): the initial value plus the double sum over the two spatial coordinates. -/
theorem hostReduceAdd_d2_3 (x : S32x64x128x128.Idx → EReal) (init : EReal) (b : Fin 32) (c : Fin 64) :
    Ideal.hostReduceAdd reducesTo_S32x64x128x128_S32x64_d2_3 x init (ix2 b c)
      = init + ∑ h : Fin 128, ∑ w : Fin 128, x (ix4 b c h w) := by
  unfold Ideal.hostReduceAdd
  refine congrArg (init + ·) ?_
  rw [← Fintype.sum_prod_type' (fun (h : Fin 128) (w : Fin 128) => x (ix4 b c h w))]
  refine Finset.sum_nbij'
    (fun i => ((⟨(i 2).val, (i 2).isLt⟩ : Fin 128), (⟨(i 3).val, (i 3).isLt⟩ : Fin 128)))
    (fun p => ix4 b c p.1 p.2) ?_ ?_ ?_ ?_ ?_
  · exact fun _ _ => Finset.mem_univ _
  · exact fun p _ => Finset.mem_filter.mpr ⟨Finset.mem_univ _, drop_ix4 b c p.1 p.2⟩
  · exact fun i hi => eq_ix4_of_drop b c i (Finset.mem_filter.mp hi).2
  · exact fun p _ => rfl
  · exact fun i hi => congrArg x (eq_ix4_of_drop b c i (Finset.mem_filter.mp hi).2).symm

/-- The reference's first stage at (b, c): the word of zero plus the sum of channel (b, c). -/
theorem val_main_v0_apply (x0 : (⟨S32x64x128x128, .f32⟩ : BufTy).Contents (Elt Ideal)) (b : Fin 32) (c : Fin 64) :
    Read.val_main_v0 (F := Ideal) x0 (ix2 b c) = Ideal.ofBits .f32 0x00000000#32 + Cert.Spec.pool x0 b c :=
  hostReduceAdd_d2_3 x0 _ b c

end Cert.ReferenceIdeal.RefValue

end
-- ==== Proof.RefValue.lean ====
/-
  The reference program computes the specified function, on the extended reals, index by index.

  Reading the reference one operation at a time: the sum over the two spatial axes divided by 16384 is the
  spatial mean (division by a nonzero real is multiplication by its reciprocal); the two contractions are the
  sums in the two affine maps; `1 / (1 + e^(-z))` is the logistic function, so the first activation is
  `z · σ(z)` and the second `σ`; the two broadcasts read the gate at (b, c) at every spatial position.
-/
import proofs.«104051_j49684181680676_2_alg».proof.Defs
import proofs.«104051_j49684181680676_2_alg».proof.Proof.Gen.ReferenceIdeal.Read
import proofs.«104051_j49684181680676_2_alg».proof.Proof.Gen.Pre_finite_inputs
import proofs.«104051_j49684181680676_2_alg».proof.Proof.Spec
import proofs.«104051_j49684181680676_2_alg».proof.Proof.RefSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The sum of channel (b, c) divided by 16384 is its mean. -/
theorem val_main_v2_ix2 (x0 : (⟨S32x64x128x128, .f32⟩ : BufTy).Contents (Elt Ideal)) (b : Fin 32) (c : Fin 64) :
    Read.val_main_v2 (F := Ideal) x0 (ix2 b c) = Cert.Spec.mean x0 b c := by
  rw [Read.val_main_v2_apply, val_main_v0_apply, Read.val_main_v1_apply, Read.val_main_cst_0_apply]
  simp only [Ideal.hostDivf_def, Ideal.ofBits_def, Cert.Spec.ofBits_zero, Cert.Spec.ofBits_16384, zero_add,
    Ideal.div_coe (by norm_num : (16384 : ℝ) ≠ 0), Cert.Spec.mean]

/-- The first contraction plus the broadcast bias is the first affine map of the row of means. -/
theorem val_main_v6_ix2 (x0 : (⟨S32x64x128x128, .f32⟩ : BufTy).Contents (Elt Ideal))
    (x1 : (⟨S16x64, .f32⟩ : BufTy).Contents (Elt Ideal)) (x2 : (⟨S16, .f32⟩ : BufTy).Contents (Elt Ideal))
    (b : Fin 32) (j : Fin 16) :
    Read.val_main_v6 (F := Ideal) x0 x1 x2 (ix2 b j) = Cert.Spec.pre1 (fun c => Cert.Spec.mean x0 b c) x1 x2 j := by
  have hl : ∀ k : Fin 64, Read.lidx_main_v3 (ix2 b j) k = ix2 b k := fun k => funext fun a => Fin.ext (by
    match a with
    | ⟨0, _⟩ => rfl
    | ⟨1, _⟩ => rfl)
  have hr : ∀ k : Fin 64, Read.ridx_main_v3 (ix2 b j) k = ix2 j k := fun k => funext fun a => Fin.ext (by
    match a with
    | ⟨0, _⟩ => rfl
    | ⟨1, _⟩ => rfl)
  have h4 : Read.idx_main_v4 (Read.idx_main_v5 (ix2 b j)) = ix1 j := funext fun a => Fin.ext (by
    match a with
    | ⟨0, _⟩ => rfl)
  rw [Read.val_main_v6_apply, Read.val_main_v3_apply, Read.val_main_v5_apply, Read.val_main_v4_apply, h4,
    Ideal.addf_def]
  unfold Cert.Spec.pre1
  refine congrArg₂ (· + ·) (Finset.sum_congr rfl fun k _ => ?_) rfl
  rw [hl k, hr k, val_main_v2_ix2]

/-- The first activation: `z · (1 / (1 + e^(-z)))` is `z · σ(z)`. -/
theorem val_main_v7_ix2 (x0 : (⟨S32x64x128x128, .f32⟩ : BufTy).Contents (Elt Ideal))
    (x1 : (⟨S16x64, .f32⟩ : BufTy).Contents (Elt Ideal)) (x2 : (⟨S16, .f32⟩ : BufTy).Contents (Elt Ideal))
    (b : Fin 32) (j : Fin 16) :
    Read.val_main_v7 (F := Ideal) x0 x1 x2 (ix2 b j) = Cert.Spec.hid (fun c => Cert.Spec.mean x0 b c) x1 x2 j := by
  rw [Read.val_main_v7_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, val_main_v6_ix2]
  simp only [Ideal.mulf_def, Ideal.hostDivf_def, Ideal.addf_def, Ideal.hostUnary_exp_def, Ideal.hostNegf_def,
    Ideal.negf_def, Ideal.ofBits_def, Cert.Spec.ofBits_one, Cert.Spec.hid, Ideal.logistic]

/-- The second contraction plus the broadcast bias, through `1 / (1 + e^(-z))`, is the gate. -/
theorem val_main_v17_ix2 (x0 : (⟨S32x64x128x128, .f32⟩ : BufTy).Contents (Elt Ideal))
    (x1 : (⟨S16x64, .f32⟩ : BufTy).Contents (Elt Ideal)) (x2 : (⟨S16, .f32⟩ : BufTy).Contents (Elt Ideal))
    (x3 : (⟨S64x16, .f32⟩ : BufTy).Contents (Elt Ideal)) (x4 : (⟨S64, .f32⟩ : BufTy).Contents (Elt Ideal))
    (b : Fin 32) (c : Fin 64) :
    Read.val_main_v17 (F := Ideal) x0 x1 x2 x3 x4 (ix2 b c) = Cert.Spec.gateAt x0 x1 x2 x3 x4 b c := by
  have hl : ∀ k : Fin 16, Read.lidx_main_v8 (ix2 b c) k = ix2 b k := fun k => funext fun a => Fin.ext (by
    match a with
    | ⟨0, _⟩ => rfl
    | ⟨1, _⟩ => rfl)
  have hr : ∀ k : Fin 16, Read.ridx_main_v8 (ix2 b c) k = ix2 c k := fun k => funext fun a => Fin.ext (by
    match a with
    | ⟨0, _⟩ => rfl
    | ⟨1, _⟩ => rfl)
  have h9 : Read.idx_main_v9 (Read.idx_main_v10 (ix2 b c)) = ix1 c := funext fun a => Fin.ext (by
    match a with
    | ⟨0, _⟩ => rfl)
  have hs : (∑ k : Fin 16, Read.val_main_v7 (F := Ideal) x0 x1 x2 (Read.lidx_main_v8 (ix2 b c) k)
        * x3 (Read.ridx_main_v8 (ix2 b c) k))
      = ∑ k : Fin 16, Cert.Spec.hid (fun c' => Cert.Spec.mean x0 b c') x1 x2 k * x3 (ix2 c k) :=
    Finset.sum_congr rfl fun k _ => by rw [hl k, hr k, val_main_v7_ix2]
  rw [Read.val_main_v17_apply, Read.val_main_v16_apply, Read.val_main_cst_2_apply, Read.val_main_v15_apply,
    Read.val_main_v14_apply, Read.val_main_cst_1_apply, Read.val_main_v13_apply, Read.val_main_v12_apply,
    Read.val_main_v11_apply, Read.val_main_v8_apply, Read.val_main_v10_apply, Read.val_main_v9_apply, h9, hs]
  simp only [Ideal.hostDivf_def, Ideal.addf_def, Ideal.hostUnary_exp_def, Ideal.hostNegf_def,
    Ideal.negf_def, Ideal.ofBits_def, Cert.Spec.ofBits_one, Cert.Spec.gateAt, Cert.Spec.gate, Ideal.logistic]

/-- The reference's result is the specified function: every entry times its channel's gate. -/
theorem result_eq (x0 : (⟨S32x64x128x128, .f32⟩ : BufTy).Contents (Elt Ideal))
    (x1 : (⟨S16x64, .f32⟩ : BufTy).Contents (Elt Ideal)) (x2 : (⟨S16, .f32⟩ : BufTy).Contents (Elt Ideal))
    (x3 : (⟨S64x16, .f32⟩ : BufTy).Contents (Elt Ideal)) (x4 : (⟨S64, .f32⟩ : BufTy).Contents (Elt Ideal)) :
    Cert.ReferenceIdeal.Read.val_main_v20 (F := Ideal) x0 x1 x2 x3 x4 = Cert.Spec.G x0 x1 x2 x3 x4 := by
  funext i
  obtain ⟨b, c, h, w, rfl⟩ : ∃ (b : Fin 32) (c : Fin 64) (h : Fin 128) (w : Fin 128), i = ix4 b c h w :=
    ⟨i 0, i 1, i 2, i 3, eq_ix4 i⟩
  have h18 : Read.idx_main_v18 (Read.idx_main_v19 (ix4 b c h w)) = ix2 b c := funext fun a => Fin.ext (by
    match a with
    | ⟨0, _⟩ => rfl
    | ⟨1, _⟩ => rfl)
  rw [Read.val_main_v20_apply, Read.val_main_v19_apply, Read.val_main_v18_apply, h18, val_main_v17_ix2]
  rfl

end Cert.ReferenceIdeal.RefValue

/-! ## The reference's two claims -/

namespace Cert.Proof.RefClaims

open Idealize.ShloMosaic Idealize.ShloMosaic.TcCoe Idealize.SL.Sem

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, ends with its result at the specified function of its arguments, and leaves the arguments
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v20)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v20_eq _ _ _ _ _).trans
        (Cert.ReferenceIdeal.RefValue.result_eq _ _ _ _ _)), (h c).2⟩)
    (Cert.ReferenceIdeal.Value.run (F := Ideal) m' ρ')

end Cert.Proof.RefClaims

end
-- ==== Proof.lean ====
/-
  The proof of `Cert.Claim` for the channel-gating kernel: `out = x · g` with
  `g = σ(W₂ · silu(W₁ · mean_{H,W}(x) + b₁) + b₂)` broadcast over the two spatial axes, x of shape [32, 64, 128, 128].

  The kernel is two grid calls. The first (grid 4 × 2 over batch tiles and halves of the first spatial axis) sums each
  block over its two spatial axes into an accumulator kept across the two halves — zeroed at the first, and at the
  second scaled by 2⁻¹⁴ and passed through the two small matrix products, `z · σ(z)` and `σ` — and writes the gate's
  block [8, 64]. The second (grid 4 × 8) copies the gate block, broadcast along the lane axis, into a scratch at the
  first of its eight steps and multiplies every block of x by it.

  At the extended reals both programs compute `Spec.G`: the two half sums add up to the reference's one sum over
  128 × 128 positions (sums of extended reals may be regrouped freely), the product with 2⁻¹⁴ is the quotient by 16384
  on every extended real, the kernel's logistic is `1 / (1 + e^(-z))`, which is the reference's spelling, and a
  matrix product into a zero accumulator is the plain sum of products. No step needs the inputs to be finite.

  Modules: Spec (the function), RefSum / RefValue (the reference is that function), KI/Region0* and KI/Region1* (each
  call's body at a grid point and what the carried scratch holds after it), KI/Frame (the run of the two calls),
  KI/Payloads, KI/Value0, KI/Value1, KI/HostVals, KI/Final (the kernel is that function), K/* (the same run for the
  program read at machine words, whose text is the same).
-/
import proofs.«104051_j49684181680676_2_alg».proof.Defs
import proofs.«104051_j49684181680676_2_alg».proof.Proof.Gen.Kernel
import proofs.«104051_j49684181680676_2_alg».proof.Proof.Gen.KernelIdeal
import proofs.«104051_j49684181680676_2_alg».proof.Proof.Gen.ReferenceIdeal
import proofs.«104051_j49684181680676_2_alg».proof.Proof.Gen.Pre_finite_inputs
import proofs.«104051_j49684181680676_2_alg».proof.Proof.K.Claim
import proofs.«104051_j49684181680676_2_alg».proof.Proof.KI.Final
import proofs.«104051_j49684181680676_2_alg».proof.Proof.RefValue
import Idealize.ShloMosaic.Adequacy
import Idealize.ShloMosaic.Init

noncomputable section

namespace Cert.Proof

open Idealize.ShloMosaic Idealize.ShloMosaic.TcCoe Idealize.SL.Sem

/-- The idealized kernel runs and leaves its arguments unchanged: its run with the result dropped. -/
theorem frame_ki : Cert.frame_KernelIdeal := fun m ρ _ =>
  (θ_run (Cert.KernelIdeal.defs (F := Ideal)) _ _).mono (fun _ h c => (h c).2) (Cert.KernelIdeal.Hand.run (F := Ideal) m ρ)

/-- From memories agreeing on the arguments both idealized programs end with the result array at `Spec.G` of the
    arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.kernel_run m ρ, ?_⟩
  refine (θ_run (Cert.ReferenceIdeal.defs (F := Ideal)) _ _).mono (fun _ h c => ⟨(h c).1.trans ?_, (h c).2⟩)
    (Cert.Proof.RefClaims.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    Cert.Proof.KClaims.frame_k, frame_ki, Cert.Proof.RefClaims.frame_ri, trivial, algebraic⟩

end Cert.Proof

end
